-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x16 : Shape := ⟨2, ![500000, 16]⟩
abbrev S2x8000000 : Shape := ⟨2, ![2, 8000000]⟩
abbrev S16x16 : Shape := ⟨2, ![16, 16]⟩
abbrev S16 : Shape := ⟨1, ![16]⟩
abbrev S16x5 : Shape := ⟨2, ![16, 5]⟩
abbrev S5 : Shape := ⟨1, ![5]⟩
abbrev S_ : Shape := ⟨0, ![]⟩

class Facts : Prop where
  bcast_S_S500000x16 : S_.BroadcastsInDim S500000x16 (![] : Fin 0 → Fin S500000x16.rank)
  reducesTo_S500000x16_S_d0_1 : S500000x16.ReducesTo [0, 1] S_
  h_S_ : 0 < S_.numel
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S16x5 : S_.BroadcastsInDim S16x5 (![] : Fin 0 → Fin S16x5.rank)
  reducesTo_S16x5_S_d0_1 : S16x5.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg5 : FVec F S5 .f32) (main_v13 : IVec S_ 1) (main_v16 : IVec S16x5 1) : IVec S_ 1 :=
  let main_c_5 : IVec S_ 1 := constantI S_ 1 1#1
  let main_v17 : IVec S_ 1 := (fun x v => Host.reduce IntOp.andi x v reducesTo_S16x5_S_d0_1 h_S_) main_v16 main_c_5
  let main_v18 : IVec S_ 1 := andi main_v13 main_v17
  let main_v19 : FVec F S5 .f32 := Host.absf main_arg5
  let main_cst_6 : FVec F S_ .f32 := constant S_ .f32 0x7F800000#32
  let main_v20 : FVec F S5 .f32 := broadcastInDim S5 ![] bcast_S_S5 main_cst_6
  let main_v21 : IVec S5 1 := cmpf .olt main_v19 main_v20
  let main_c_7 : IVec S_ 1 := constantI S_ 1 1#1
  let main_v22 : IVec S_ 1 := (fun x v => Host.reduce IntOp.andi x v reducesTo_S5_S_d0 h_S_) main_v21 main_c_7
  let main_v23 : IVec S_ 1 := andi main_v18 main_v22
  main_v23

def fn {F : FTy → Type} [FloatOps F] (main_arg0 : FVec F S500000x16 .f32) (main_arg1 : IVec S2x8000000 32) (main_arg2 : FVec F S16x16 .f32) (main_arg3 : FVec F S16 .f32) (main_arg4 : FVec F S16x5 .f32) (main_arg5 : FVec F S5 .f32) : IVec S_ 1 :=
  let main_v0 : FVec F S500000x16 .f32 := Host.absf main_arg0
  let main_cst : FVec F S_ .f32 := constant S_ .f32 0x7F800000#32
  let main_v1 : FVec F S500000x16 .f32 := broadcastInDim S500000x16 ![] bcast_S_S500000x16 main_cst
  let main_v2 : IVec S500000x16 1 := cmpf .olt main_v0 main_v1
  let main_c : IVec S_ 1 := constantI S_ 1 1#1
  let main_v3 : IVec S_ 1 := (fun x v => Host.reduce IntOp.andi x v reducesTo_S500000x16_S_d0_1 h_S_) main_v2 main_c
  let main_v4 : FVec F S16x16 .f32 := Host.absf main_arg2
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x5 .f32 := Host.absf main_arg4
  let main_cst_4 : FVec F S_ .f32 := constant S_ .f32 0x7F800000#32
  let main_v15 : FVec F S16x5 .f32 := broadcastInDim S16x5 ![] bcast_S_S16x5 main_cst_4
  let main_v16 : IVec S16x5 1 := cmpf .olt main_v14 main_v15
  fn_part1 (F := F) main_arg5 main_v13 main_v16
-- ==== Kernel.lean ====
abbrev S500000x16 : Shape := ⟨2, ![500000, 16]⟩
abbrev S2x8000000 : Shape := ⟨2, ![2, 8000000]⟩
abbrev S16x16 : Shape := ⟨2, ![16, 16]⟩
abbrev S16 : Shape := ⟨1, ![16]⟩
abbrev S16x5 : Shape := ⟨2, ![16, 5]⟩
abbrev S5 : Shape := ⟨1, ![5]⟩
abbrev S500000 : Shape := ⟨1, ![500000]⟩
abbrev S1x8000000 : Shape := ⟨2, ![1, 8000000]⟩
abbrev S8000000 : Shape := ⟨1, ![8000000]⟩
abbrev S8500000 : Shape := ⟨1, ![8500000]⟩
abbrev S_ : Shape := ⟨0, ![]⟩
abbrev S8500000x1 : Shape := ⟨2, ![8500000, 1]⟩
abbrev S10000x16 : Shape := ⟨2, ![10000, 16]⟩
abbrev S8500000x16 : Shape := ⟨2, ![8500000, 16]⟩
abbrev S1x16 : Shape := ⟨2, ![1, 16]⟩
abbrev S1x5 : Shape := ⟨2, ![1, 5]⟩
abbrev S500000x5 : Shape := ⟨2, ![500000, 5]⟩
abbrev S10000x5 : Shape := ⟨2, ![10000, 5]⟩
abbrev S10000 : Shape := ⟨1, ![10000]⟩
abbrev S10000x1 : Shape := ⟨2, ![10000, 1]⟩

abbrev nBuf : Space → Nat
  | .hbm => 66
  | .vmem => 12
  | .smem => 0
  | _ => 0

abbrev bufTy : (tb : Table) → Fin (tcTables nBuf tb) → BufTy
  | .hbm, ⟨0, _⟩ => ⟨S500000x16, .f32⟩
  | .hbm, ⟨1, _⟩ => ⟨S2x8000000, .i32⟩
  | .hbm, ⟨2, _⟩ => ⟨S16x16, .f32⟩
  | .hbm, ⟨3, _⟩ => ⟨S16, .f32⟩
  | .hbm, ⟨4, _⟩ => ⟨S16x5, .f32⟩
  | .hbm, ⟨5, _⟩ => ⟨S5, .f32⟩
  | .hbm, ⟨6, _⟩ => ⟨S500000, .i32⟩
  | .hbm, ⟨7, _⟩ => ⟨S1x8000000, .i32⟩
  | .hbm, ⟨8, _⟩ => ⟨S8000000, .i32⟩
  | .hbm, ⟨9, _⟩ => ⟨S8500000, .i32⟩
  | .hbm, ⟨10, _⟩ => ⟨S1x8000000, .i32⟩
  | .hbm, ⟨11, _⟩ => ⟨S8000000, .i32⟩
  | .hbm, ⟨12, _⟩ => ⟨S8500000, .i32⟩
  | .hbm, ⟨13, _⟩ => ⟨S_, .f32⟩
  | .hbm, ⟨14, _⟩ => ⟨S8500000, .f32⟩
  | .hbm, ⟨15, _⟩ => ⟨S_, .f32⟩
  | .hbm, ⟨16, _⟩ => ⟨S500000, .f32⟩
  | .hbm, ⟨17, _⟩ => ⟨S8500000x1, .i32⟩
  | .hbm, ⟨18, _⟩ => ⟨S500000, .f32⟩
  | .hbm, ⟨19, _⟩ => ⟨S_, .f32⟩
  | .hbm, ⟨20, _⟩ => ⟨S500000, .f32⟩
  | .hbm, ⟨21, _⟩ => ⟨S500000, .i1⟩
  | .hbm, ⟨22, _⟩ => ⟨S500000, .f32⟩
  | .hbm, ⟨23, _⟩ => ⟨S_, .f32⟩
  | .hbm, ⟨24, _⟩ => ⟨S_, .f32⟩
  | .hbm, ⟨25, _⟩ => ⟨S500000, .f32⟩
  | .hbm, ⟨26, _⟩ => ⟨S500000, .f32⟩
  | .hbm, ⟨27, _⟩ => ⟨S_, .i32⟩
  | .hbm, ⟨28, _⟩ => ⟨S8500000, .i32⟩
  | .hbm, ⟨29, _⟩ => ⟨S8500000, .i1⟩
  | .hbm, ⟨30, _⟩ => ⟨S_, .i32⟩
  | .hbm, ⟨31, _⟩ => ⟨S8500000, .i32⟩
  | .hbm, ⟨32, _⟩ => ⟨S8500000, .i32⟩
  | .hbm, ⟨33, _⟩ => ⟨S8500000, .i32⟩
  | .hbm, ⟨34, _⟩ => ⟨S8500000x1, .i32⟩
  | .hbm, ⟨35, _⟩ => ⟨S8500000, .f32⟩
  | .hbm, ⟨36, _⟩ => ⟨S_, .i32⟩
  | .hbm, ⟨37, _⟩ => ⟨S8500000, .i32⟩
  | .hbm, ⟨38, _⟩ => ⟨S8500000, .i1⟩
  | .hbm, ⟨39, _⟩ => ⟨S_, .i32⟩
  | .hbm, ⟨40, _⟩ => ⟨S8500000, .i32⟩
  | .hbm, ⟨41, _⟩ => ⟨S8500000, .i32⟩
  | .hbm, ⟨42, _⟩ => ⟨S8500000, .i32⟩
  | .hbm, ⟨43, _⟩ => ⟨S8500000x1, .i32⟩
  | .hbm, ⟨44, _⟩ => ⟨S8500000, .f32⟩
  | .hbm, ⟨45, _⟩ => ⟨S8500000, .f32⟩
  | .hbm, ⟨46, _⟩ => ⟨S500000x16, .f32⟩
  | .hbm, ⟨47, _⟩ => ⟨S_, .i32⟩
  | .hbm, ⟨48, _⟩ => ⟨S8500000, .i32⟩
  | .hbm, ⟨49, _⟩ => ⟨S8500000, .i1⟩
  | .hbm, ⟨50, _⟩ => ⟨S_, .i32⟩
  | .hbm, ⟨51, _⟩ => ⟨S8500000, .i32⟩
  | .hbm, ⟨52, _⟩ => ⟨S8500000, .i32⟩
  | .hbm, ⟨53, _⟩ => ⟨S8500000, .i32⟩
  | .hbm, ⟨54, _⟩ => ⟨S8500000x1, .i32⟩
  | .hbm, ⟨55, _⟩ => ⟨S8500000x16, .f32⟩
  | .hbm, ⟨56, _⟩ => ⟨S8500000x1, .f32⟩
  | .hbm, ⟨57, _⟩ => ⟨S8500000x16, .f32⟩
  | .hbm, ⟨58, _⟩ => ⟨S8500000x16, .f32⟩
  | .hbm, ⟨59, _⟩ => ⟨S_, .f32⟩
  | .hbm, ⟨60, _⟩ => ⟨S500000x16, .f32⟩
  | .hbm, ⟨61, _⟩ => ⟨S8500000x1, .i32⟩
  | .hbm, ⟨62, _⟩ => ⟨S500000x16, .f32⟩
  | .hbm, ⟨63, _⟩ => ⟨S1x16, .f32⟩
  | .hbm, ⟨64, _⟩ => ⟨S1x5, .f32⟩
  | .hbm, ⟨65, _⟩ => ⟨S500000x5, .f32⟩
  | .local _ .vmem, ⟨0, _⟩ => ⟨S10000x16, .f32⟩
  | .local _ .vmem, ⟨1, _⟩ => ⟨S10000x16, .f32⟩
  | .local _ .vmem, ⟨2, _⟩ => ⟨S16x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x5, .f32⟩
  | .local _ .vmem, ⟨9, _⟩ => ⟨S1x5, .f32⟩
  | .local _ .vmem, ⟨10, _⟩ => ⟨S10000x5, .f32⟩
  | .local _ .vmem, ⟨11, _⟩ => ⟨S10000x5, .f32⟩
  | _, _ => ⟨S500000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x5 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x5 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x5 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x8000000_S1x8000000_0_0 : S2x8000000.Slices ![0, 0] S1x8000000
  shapeCasts_S1x8000000_S8000000 : S1x8000000.ShapeCasts S8000000
  concatenates_S8000000_S500000_S8500000_d0 : Shape.Concatenates [S8000000, S500000] S8500000 0
  slices_S2x8000000_S1x8000000_1_0 : S2x8000000.Slices ![1, 0] S1x8000000
  bcast_S_S8500000 : S_.BroadcastsInDim S8500000 (![] : Fin 0 → Fin S8500000.rank)
  bcast_S_S500000 : S_.BroadcastsInDim S500000 (![] : Fin 0 → Fin S500000.rank)
  bcast_S8500000_S8500000x1_0 : S8500000.BroadcastsInDim S8500000x1 (![0] : Fin 1 → Fin S8500000x1.rank)
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  inb_S16x16_S16x16_0_0 : ∀ a, (![0, 0] : Fin 2 → Nat) a + S16x16.size a ≤ S16x16.size a
  h_S16x16 : 0 < S16x16.numel
  bcast_S8500000x1_S8500000x16_0_1 : S8500000x1.BroadcastsInDim S8500000x16 (![0, 1] : Fin 2 → Fin S8500000x16.rank)
  bcast_S_S500000x16 : S_.BroadcastsInDim S500000x16 (![] : Fin 0 → Fin S500000x16.rank)
  shapeCasts_S16_S1x16 : S16.ShapeCasts S1x16
  shapeCasts_S5_S1x5 : S5.ShapeCasts S1x5
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x5_S16x5_0_0 : ∀ a, (![0, 0] : Fin 2 → Nat) a + S16x5.size a ≤ S16x5.size a
  h_S16x5 : 0 < S16x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S10000x5 : S1x5.Broadcasts S10000x5
  reduces_S10000x5_S10000 : S10000x5.Reduces [1] S10000
  shapeCasts_S10000_S10000x1 : S10000.ShapeCasts S10000x1
  broadcasts_S10000x1_S10000x5 : S10000x1.Broadcasts S10000x5
  inb_S10000x5_S10000x5_0_0 : ∀ a, (![0, 0] : Fin 2 → Nat) a + S10000x5.size a ≤ S10000x5.size a
  h_S10000x5 : 0 < S10000x5.numel
  scatter_S500000_S8500000x1_S8500000_n_0_0_1_wf : ScatterDims.WF S500000 S8500000x1 S8500000 [] [0] [0] 1
  gather_S500000_S8500000x1_S8500000_n_0_n_n_0_1_1_wf : GatherDims.WF S500000 S8500000x1 S8500000 [] [0] [] [0] [] 1 ![1]
  dot_S10000x16_S16x16_S10000x16_1_0_0_1_n_n_wf : DotDims.WF S10000x16 S16x16 S10000x16 [1] [0] [0] [1] [] []
  gather_S500000x16_S8500000x1_S8500000x16_1_0_n_n_0_1_116_wf : GatherDims.WF S500000x16 S8500000x1 S8500000x16 [1] [0] [] [0] [] 1 ![1, 16]
  scatter_S500000x16_S8500000x1_S8500000x16_1_0_0_1_wf : ScatterDims.WF S500000x16 S8500000x1 S8500000x16 [1] [0] [0] 1
  dot_S10000x16_S16x5_S10000x5_1_0_0_1_n_n_wf : DotDims.WF S10000x16 S16x5 S10000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S500000x16.size a
  hwx0_0 : ∀ i : grid0.Coords, EltTy.bits .f32 = 32 ∨ (Rect.block (s := S500000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S16x16.size a
  hwx0_1 : ∀ i : grid0.Coords, EltTy.bits .f32 = 32 ∨ (Rect.block (s := S16x16) S16x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S500000x16.size a
  hwx0_2 : ∀ i : grid0.Coords, EltTy.bits .f32 = 32 ∨ (Rect.block (s := S500000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S500000x16.size a
  hwx1_0 : ∀ i : grid1.Coords, EltTy.bits .f32 = 32 ∨ (Rect.block (s := S500000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x5.size a ≤ S16x5.size a
  hwx1_2 : ∀ i : grid1.Coords, EltTy.bits .f32 = 32 ∨ (Rect.block (s := S16x5) S16x5.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x5.size a ≤ S1x5.size a
  hwx1_3 : ∀ i : grid1.Coords, EltTy.bits .f32 = 32 ∨ (Rect.block (s := S1x5) S1x5.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x5.size a ≤ S500000x5.size a
  hwx1_4 : ∀ i : grid1.Coords, EltTy.bits .f32 = 32 ∨ (Rect.block (s := S500000x5) S10000x5.size (cc1_transform_4 i) (hinb1_4 i)).WholeWords (EltTy.packing .f32)

variable [Facts₀]

def scatter_S500000_S8500000x1_S8500000_n_0_0_1 : ScatterDims S500000 S8500000x1 S8500000 where
  updateWindowDims := []
  insertedWindowDims := [0]
  scatterDimsToOperandDims := [0]
  indexVectorDim := 1
  wf := scatter_S500000_S8500000x1_S8500000_n_0_0_1_wf
def gather_S500000_S8500000x1_S8500000_n_0_n_n_0_1_1 : GatherDims S500000 S8500000x1 S8500000 where
  offsetDims := []
  collapsedSliceDims := [0]
  operandBatchingDims := []
  startIndicesBatchingDims := []
  startIndexMap := [0]
  indexVectorDim := 1
  sliceSizes := ![1]
  wf := gather_S500000_S8500000x1_S8500000_n_0_n_n_0_1_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def gather_S500000x16_S8500000x1_S8500000x16_1_0_n_n_0_1_116 : GatherDims S500000x16 S8500000x1 S8500000x16 where
  offsetDims := [1]
  collapsedSliceDims := [0]
  operandBatchingDims := []
  startIndicesBatchingDims := []
  startIndexMap := [0]
  indexVectorDim := 1
  sliceSizes := ![1, 16]
  wf := gather_S500000x16_S8500000x1_S8500000x16_1_0_n_n_0_1_116_wf
def scatter_S500000x16_S8500000x1_S8500000x16_1_0_0_1 : ScatterDims S500000x16 S8500000x1 S8500000x16 where
  updateWindowDims := [1]
  insertedWindowDims := [0]
  scatterDimsToOperandDims := [0]
  indexVectorDim := 1
  wf := scatter_S500000x16_S8500000x1_S8500000x16_1_0_0_1_wf
def dot_S10000x16_S16x5_S10000x5_1_0_0_1_n_n : DotDims S10000x16 S16x5 S10000x5 where
  lhsContracting := [1]
  rhsContracting := [0]
  lhsNonContracting := [0]
  rhsNonContracting := [1]
  lhsBatch := []
  rhsBatch := []
  wf := dot_S10000x16_S16x5_S10000x5_1_0_0_1_n_n_wf

abbrev win0_0 : Pipeline.Window sig grid0 :=
  Pipeline.Window.ofSpec (Memref.whole main_arg0) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x5.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x5.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S10000x5.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S500000x16 : Shape := ⟨2, ![500000, 16]⟩
abbrev S2x8000000 : Shape := ⟨2, ![2, 8000000]⟩
abbrev S16x16 : Shape := ⟨2, ![16, 16]⟩
abbrev S16 : Shape := ⟨1, ![16]⟩
abbrev S16x5 : Shape := ⟨2, ![16, 5]⟩
abbrev S5 : Shape := ⟨1, ![5]⟩
abbrev S500000 : Shape := ⟨1, ![500000]⟩
abbrev S1x8000000 : Shape := ⟨2, ![1, 8000000]⟩
abbrev S8000000 : Shape := ⟨1, ![8000000]⟩
abbrev S8500000 : Shape := ⟨1, ![8500000]⟩
abbrev S_ : Shape := ⟨0, ![]⟩
abbrev S8500000x1 : Shape := ⟨2, ![8500000, 1]⟩
abbrev S8500000x16 : Shape := ⟨2, ![8500000, 16]⟩
abbrev S1x16 : Shape := ⟨2, ![1, 16]⟩
abbrev S500000x5 : Shape := ⟨2, ![500000, 5]⟩
abbrev S1x5 : Shape := ⟨2, ![1, 5]⟩
abbrev S500000x1 : Shape := ⟨2, ![500000, 1]⟩

abbrev nBuf : Space → Nat
  | .hbm => 88
  | .vmem => 0
  | .smem => 0
  | _ => 0

abbrev bufTy : (tb : Table) → Fin (tcTables nBuf tb) → BufTy
  | .hbm, ⟨0, _⟩ => ⟨S500000x16, .f32⟩
  | .hbm, ⟨1, _⟩ => ⟨S2x8000000, .i32⟩
  | .hbm, ⟨2, _⟩ => ⟨S16x16, .f32⟩
  | .hbm, ⟨3, _⟩ => ⟨S16, .f32⟩
  | .hbm, ⟨4, _⟩ => ⟨S16x5, .f32⟩
  | .hbm, ⟨5, _⟩ => ⟨S5, .f32⟩
  | .hbm, ⟨6, _⟩ => ⟨S500000, .i32⟩
  | .hbm, ⟨7, _⟩ => ⟨S1x8000000, .i32⟩
  | .hbm, ⟨8, _⟩ => ⟨S8000000, .i32⟩
  | .hbm, ⟨9, _⟩ => ⟨S8500000, .i32⟩
  | .hbm, ⟨10, _⟩ => ⟨S1x8000000, .i32⟩
  | .hbm, ⟨11, _⟩ => ⟨S8000000, .i32⟩
  | .hbm, ⟨12, _⟩ => ⟨S8500000, .i32⟩
  | .hbm, ⟨13, _⟩ => ⟨S_, .f32⟩
  | .hbm, ⟨14, _⟩ => ⟨S8500000, .f32⟩
  | .hbm, ⟨15, _⟩ => ⟨S_, .f32⟩
  | .hbm, ⟨16, _⟩ => ⟨S500000, .f32⟩
  | .hbm, ⟨17, _⟩ => ⟨S8500000x1, .i32⟩
  | .hbm, ⟨18, _⟩ => ⟨S500000, .f32⟩
  | .hbm, ⟨19, _⟩ => ⟨S_, .f32⟩
  | .hbm, ⟨20, _⟩ => ⟨S500000, .f32⟩
  | .hbm, ⟨21, _⟩ => ⟨S500000, .i1⟩
  | .hbm, ⟨22, _⟩ => ⟨S500000, .f32⟩
  | .hbm, ⟨23, _⟩ => ⟨S_, .f32⟩
  | .hbm, ⟨24, _⟩ => ⟨S_, .f32⟩
  | .hbm, ⟨25, _⟩ => ⟨S500000, .f32⟩
  | .hbm, ⟨26, _⟩ => ⟨S500000, .f32⟩
  | .hbm, ⟨27, _⟩ => ⟨S_, .i32⟩
  | .hbm, ⟨28, _⟩ => ⟨S8500000, .i32⟩
  | .hbm, ⟨29, _⟩ => ⟨S8500000, .i1⟩
  | .hbm, ⟨30, _⟩ => ⟨S_, .i32⟩
  | .hbm, ⟨31, _⟩ => ⟨S8500000, .i32⟩
  | .hbm, ⟨32, _⟩ => ⟨S8500000, .i32⟩
  | .hbm, ⟨33, _⟩ => ⟨S8500000, .i32⟩
  | .hbm, ⟨34, _⟩ => ⟨S8500000x1, .i32⟩
  | .hbm, ⟨35, _⟩ => ⟨S8500000, .f32⟩
  | .hbm, ⟨36, _⟩ => ⟨S_, .i32⟩
  | .hbm, ⟨37, _⟩ => ⟨S8500000, .i32⟩
  | .hbm, ⟨38, _⟩ => ⟨S8500000, .i1⟩
  | .hbm, ⟨39, _⟩ => ⟨S_, .i32⟩
  | .hbm, ⟨40, _⟩ => ⟨S8500000, .i32⟩
  | .hbm, ⟨41, _⟩ => ⟨S8500000, .i32⟩
  | .hbm, ⟨42, _⟩ => ⟨S8500000, .i32⟩
  | .hbm, ⟨43, _⟩ => ⟨S8500000x1, .i32⟩
  | .hbm, ⟨44, _⟩ => ⟨S8500000, .f32⟩
  | .hbm, ⟨45, _⟩ => ⟨S8500000, .f32⟩
  | .hbm, ⟨46, _⟩ => ⟨S500000x16, .f32⟩
  | .hbm, ⟨47, _⟩ => ⟨S_, .i32⟩
  | .hbm, ⟨48, _⟩ => ⟨S8500000, .i32⟩
  | .hbm, ⟨49, _⟩ => ⟨S8500000, .i1⟩
  | .hbm, ⟨50, _⟩ => ⟨S_, .i32⟩
  | .hbm, ⟨51, _⟩ => ⟨S8500000, .i32⟩
  | .hbm, ⟨52, _⟩ => ⟨S8500000, .i32⟩
  | .hbm, ⟨53, _⟩ => ⟨S8500000, .i32⟩
  | .hbm, ⟨54, _⟩ => ⟨S8500000x1, .i32⟩
  | .hbm, ⟨55, _⟩ => ⟨S8500000x16, .f32⟩
  | .hbm, ⟨56, _⟩ => ⟨S8500000x1, .f32⟩
  | .hbm, ⟨57, _⟩ => ⟨S8500000x16, .f32⟩
  | .hbm, ⟨58, _⟩ => ⟨S8500000x16, .f32⟩
  | .hbm, ⟨59, _⟩ => ⟨S_, .f32⟩
  | .hbm, ⟨60, _⟩ => ⟨S500000x16, .f32⟩
  | .hbm, ⟨61, _⟩ => ⟨S8500000x1, .i32⟩
  | .hbm, ⟨62, _⟩ => ⟨S500000x16, .f32⟩
  | .hbm, ⟨63, _⟩ => ⟨S1x16, .f32⟩
  | .hbm, ⟨64, _⟩ => ⟨S500000x16, .f32⟩
  | .hbm, ⟨65, _⟩ => ⟨S500000x16, .f32⟩
  | .hbm, ⟨66, _⟩ => ⟨S_, .f32⟩
  | .hbm, ⟨67, _⟩ => ⟨S500000x16, .f32⟩
  | .hbm, ⟨68, _⟩ => ⟨S500000x16, .f32⟩
  | .hbm, ⟨69, _⟩ => ⟨S500000x5, .f32⟩
  | .hbm, ⟨70, _⟩ => ⟨S1x5, .f32⟩
  | .hbm, ⟨71, _⟩ => ⟨S500000x5, .f32⟩
  | .hbm, ⟨72, _⟩ => ⟨S500000x5, .f32⟩
  | .hbm, ⟨73, _⟩ => ⟨S_, .f32⟩
  | .hbm, ⟨74, _⟩ => ⟨S500000, .f32⟩
  | .hbm, ⟨75, _⟩ => ⟨S_, .f32⟩
  | .hbm, ⟨76, _⟩ => ⟨S500000, .f32⟩
  | .hbm, ⟨77, _⟩ => ⟨S500000, .f32⟩
  | .hbm, ⟨78, _⟩ => ⟨S500000x1, .f32⟩
  | .hbm, ⟨79, _⟩ => ⟨S500000x5, .f32⟩
  | .hbm, ⟨80, _⟩ => ⟨S500000x5, .f32⟩
  | .hbm, ⟨81, _⟩ => ⟨S500000x5, .f32⟩
  | .hbm, ⟨82, _⟩ => ⟨S_, .f32⟩
  | .hbm, ⟨83, _⟩ => ⟨S500000, .f32⟩
  | .hbm, ⟨84, _⟩ => ⟨S500000x1, .f32⟩
  | .hbm, ⟨85, _⟩ => ⟨S500000x1, .f32⟩
  | .hbm, ⟨86, _⟩ => ⟨S500000x5, .f32⟩
  | .hbm, ⟨87, _⟩ => ⟨S500000x5, .f32⟩
  | _, _ => ⟨S500000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call2_cst : Ref sig .tc := ⟨.hbm, 73, rfl⟩
abbrev main_call2_v0 : Ref sig .tc := ⟨.hbm, 74, rfl⟩
abbrev main_call2_cst_0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_cst_1 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_v52 : Ref sig .tc := ⟨.hbm, 87, rfl⟩

abbrev nD : Nat := 1
abbrev τ : Topo := Topo.v7x

variable {F : FTy → Type} [FloatOps F]

class Facts₀ : Prop where
  slices_S2x8000000_S1x8000000_0_0 : S2x8000000.Slices ![0, 0] S1x8000000
  shapeCasts_S1x8000000_S8000000 : S1x8000000.ShapeCasts S8000000
  concatenates_S8000000_S500000_S8500000_d0 : Shape.Concatenates [S8000000, S500000] S8500000 0
  slices_S2x8000000_S1x8000000_1_0 : S2x8000000.Slices ![1, 0] S1x8000000
  bcast_S_S8500000 : S_.BroadcastsInDim S8500000 (![] : Fin 0 → Fin S8500000.rank)
  bcast_S_S500000 : S_.BroadcastsInDim S500000 (![] : Fin 0 → Fin S500000.rank)
  bcast_S8500000_S8500000x1_0 : S8500000.BroadcastsInDim S8500000x1 (![0] : Fin 1 → Fin S8500000x1.rank)
  bcast_S8500000x1_S8500000x16_0_1 : S8500000x1.BroadcastsInDim S8500000x16 (![0, 1] : Fin 2 → Fin S8500000x16.rank)
  bcast_S_S500000x16 : S_.BroadcastsInDim S500000x16 (![] : Fin 0 → Fin S500000x16.rank)
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  bcast_S5_S1x5_1 : S5.BroadcastsInDim S1x5 (![1] : Fin 1 → Fin S1x5.rank)
  bcast_S1x5_S500000x5_0_1 : S1x5.BroadcastsInDim S500000x5 (![0, 1] : Fin 2 → Fin S500000x5.rank)
  reducesTo_S500000x5_S500000_d1 : S500000x5.ReducesTo [1] S500000
  h_S_ : 0 < S_.numel
  bcast_S500000_S500000x1_0 : S500000.BroadcastsInDim S500000x1 (![0] : Fin 1 → Fin S500000x1.rank)
  bcast_S500000x1_S500000x5_0_1 : S500000x1.BroadcastsInDim S500000x5 (![0, 1] : Fin 2 → Fin S500000x5.rank)
  scatter_S500000_S8500000x1_S8500000_n_0_0_1_wf : ScatterDims.WF S500000 S8500000x1 S8500000 [] [0] [0] 1
  gather_S500000_S8500000x1_S8500000_n_0_n_n_0_1_1_wf : GatherDims.WF S500000 S8500000x1 S8500000 [] [0] [] [0] [] 1 ![1]
  dot_S500000x16_S16x16_S500000x16_1_0_0_1_n_n_wf : DotDims.WF S500000x16 S16x16 S500000x16 [1] [0] [0] [1] [] []
  gather_S500000x16_S8500000x1_S8500000x16_1_0_n_n_0_1_116_wf : GatherDims.WF S500000x16 S8500000x1 S8500000x16 [1] [0] [] [0] [] 1 ![1, 16]
  scatter_S500000x16_S8500000x1_S8500000x16_1_0_0_1_wf : ScatterDims.WF S500000x16 S8500000x1 S8500000x16 [1] [0] [0] 1
  dot_S500000x16_S16x5_S500000x5_1_0_0_1_n_n_wf : DotDims.WF S500000x16 S16x5 S500000x5 [1] [0] [0] [1] [] []

variable [Facts₀]

def scatter_S500000_S8500000x1_S8500000_n_0_0_1 : ScatterDims S500000 S8500000x1 S8500000 where
  updateWindowDims := []
  insertedWindowDims := [0]
  scatterDimsToOperandDims := [0]
  indexVectorDim := 1
  wf := scatter_S500000_S8500000x1_S8500000_n_0_0_1_wf
def gather_S500000_S8500000x1_S8500000_n_0_n_n_0_1_1 : GatherDims S500000 S8500000x1 S8500000 where
  offsetDims := []
  collapsedSliceDims := [0]
  operandBatchingDims := []
  startIndicesBatchingDims := []
  startIndexMap := [0]
  indexVectorDim := 1
  sliceSizes := ![1]
  wf := gather_S500000_S8500000x1_S8500000_n_0_n_n_0_1_1_wf
def dot_S500000x16_S16x16_S500000x16_1_0_0_1_n_n : DotDims S500000x16 S16x16 S500000x16 where
  lhsContracting := [1]
  rhsContracting := [0]
  lhsNonContracting := [0]
  rhsNonContracting := [1]
  lhsBatch := []
  rhsBatch := []
  wf := dot_S500000x16_S16x16_S500000x16_1_0_0_1_n_n_wf
def gather_S500000x16_S8500000x1_S8500000x16_1_0_n_n_0_1_116 : GatherDims S500000x16 S8500000x1 S8500000x16 where
  offsetDims := [1]
  collapsedSliceDims := [0]
  operandBatchingDims := []
  startIndicesBatchingDims := []
  startIndexMap := [0]
  indexVectorDim := 1
  sliceSizes := ![1, 16]
  wf := gather_S500000x16_S8500000x1_S8500000x16_1_0_n_n_0_1_116_wf
def scatter_S500000x16_S8500000x1_S8500000x16_1_0_0_1 : ScatterDims S500000x16 S8500000x1 S8500000x16 where
  updateWindowDims := [1]
  insertedWindowDims := [0]
  scatterDimsToOperandDims := [0]
  indexVectorDim := 1
  wf := scatter_S500000x16_S8500000x1_S8500000x16_1_0_0_1_wf
def dot_S500000x16_S16x5_S500000x5_1_0_0_1_n_n : DotDims S500000x16 S16x5 S500000x5 where
  lhsContracting := [1]
  rhsContracting := [0]
  lhsNonContracting := [0]
  rhsNonContracting := [1]
  lhsBatch := []
  rhsBatch := []
  wf := dot_S500000x16_S16x5_S500000x5_1_0_0_1_n_n_wf

class Facts : Prop extends Facts₀ where

variable [Facts]
-- ==== Proof.RefValue.lean ====
/-
  The reference program's run, with its result read as the last stage of its operations.

  The reference is a straight line of 82 host operations. Its first 65 compute the five logits of every node (the degree
  normalisation, the projection, the edge aggregation, bias, cut at zero, the second matrix, bias); the last 17 are the
  log-softmax of the logits. Evaluating the line operation by operation, each buffer ends holding its stage function of the
  argument arrays (RefRead.lean): first the logits, then — over the logits as one opaque array — the result. The arguments
  are written by no operation.
-/
import proofs.«170910_j54992761258609_1_alg».proof.Proof.RefRun
import proofs.«170910_j54992761258609_1_alg».proof.Proof.RefRead
import Idealize.ShloMosaic.Lib.StableHlo.Run

noncomputable section

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The operations up to the logits, and the log-softmax's operations after them: the program's list cut in two. -/
abbrev opsA : List (HloOp τ sig (Elt F)) :=
  [ nullary main_v0 (iotaInDim S500000 32 0),
    unary main_arg1 main_v1 ((extractStridedSlice S1x8000000 ![0, 0] · slices_S2x8000000_S1x8000000_0_0) : (⟨S2x8000000, .i32⟩ : BufTy).Contents (Elt F) → (⟨S1x8000000, .i32⟩ : BufTy).Contents (Elt F)),
    reshape main_v1 main_v2 rfl shapeCasts_S1x8000000_S8000000,
    binary main_v2 main_v0 main_v3 ((fun a b => concatenate S8500000 0 [⟨S8000000, a⟩, ⟨S500000, b⟩] concatenates_S8000000_S500000_S8500000_d0) : (⟨S8000000, .i32⟩ : BufTy).Contents (Elt F) → (⟨S500000, .i32⟩ : BufTy).Contents (Elt F) → (⟨S8500000, .i32⟩ : BufTy).Contents (Elt F)),
    unary main_arg1 main_v4 ((extractStridedSlice S1x8000000 ![1, 0] · slices_S2x8000000_S1x8000000_1_0) : (⟨S2x8000000, .i32⟩ : BufTy).Contents (Elt F) → (⟨S1x8000000, .i32⟩ : BufTy).Contents (Elt F)),
    reshape main_v4 main_v5 rfl shapeCasts_S1x8000000_S8000000,
    binary main_v5 main_v0 main_v6 ((fun a b => concatenate S8500000 0 [⟨S8000000, a⟩, ⟨S500000, b⟩] concatenates_S8000000_S500000_S8500000_d0) : (⟨S8000000, .i32⟩ : BufTy).Contents (Elt F) → (⟨S500000, .i32⟩ : BufTy).Contents (Elt F) → (⟨S8500000, .i32⟩ : BufTy).Contents (Elt F)),
    nullary main_cst (constant S_ .f32 0x3F800000#32),
    unary main_cst main_v7 (broadcastInDim S8500000 ![] bcast_S_S8500000 : (⟨S_, .f32⟩ : BufTy).Contents (Elt F) → (⟨S8500000, .f32⟩ : BufTy).Contents (Elt F)),
    nullary main_cst_0 (constant S_ .f32 0x00000000#32),
    unary main_cst_0 main_v8 (broadcastInDim S500000 ![] bcast_S_S500000 : (⟨S_, .f32⟩ : BufTy).Contents (Elt F) → (⟨S500000, .f32⟩ : BufTy).Contents (Elt F)),
    unary main_v6 main_v9 (broadcastInDim S8500000x1 ![0] bcast_S8500000_S8500000x1_0 : (⟨S8500000, .i32⟩ : BufTy).Contents (Elt F) → (⟨S8500000x1, .i32⟩ : BufTy).Contents (Elt F)),
    ternary main_v8 main_v9 main_v7 main_v10 ((fun x i u => Host.scatterAdd scatter_S500000_S8500000x1_S8500000_n_0_0_1 x i u) : (⟨S500000, .f32⟩ : BufTy).Contents (Elt F) → (⟨S8500000x1, .i32⟩ : BufTy).Contents (Elt F) → (⟨S8500000, .f32⟩ : BufTy).Contents (Elt F) → (⟨S500000, .f32⟩ : BufTy).Contents (Elt F)),
    nullary main_cst_1 (constant S_ .f32 0x00000000#32),
    unary main_cst_1 main_v11 (broadcastInDim S500000 ![] bcast_S_S500000 : (⟨S_, .f32⟩ : BufTy).Contents (Elt F) → (⟨S500000, .f32⟩ : BufTy).Contents (Elt F)),
    binary main_v10 main_v11 main_v12 (cmpf .ogt : (⟨S500000, .f32⟩ : BufTy).Contents (Elt F) → (⟨S500000, .f32⟩ : BufTy).Contents (Elt F) → (⟨S500000, .i1⟩ : BufTy).Contents (Elt F)),
    unary main_v10 main_v13 (Host.rsqrt : (⟨S500000, .f32⟩ : BufTy).Contents (Elt F) → (⟨S500000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S500000, .f32⟩) main_call0_v1) (broadcastInDim S500000 ![] bcast_S_S500000),
    TRef.ternary (TRef.of (T := ⟨S500000, .i1⟩) main_v12) (TRef.of (T := ⟨S500000, .f32⟩) main_v13) (TRef.of (T := ⟨S500000, .f32⟩) main_call0_v1) (TRef.of (T := ⟨S500000, .f32⟩) main_v14) select,
    nullary main_c (constantI S_ 32 0#32),
    unary main_c main_v15 (broadcastInDim S8500000 ![] bcast_S_S8500000 : (⟨S_, .i32⟩ : BufTy).Contents (Elt F) → (⟨S8500000, .i32⟩ : BufTy).Contents (Elt F)),
    binary main_v3 main_v15 main_v16 (cmpi .slt : (⟨S8500000, .i32⟩ : BufTy).Contents (Elt F) → (⟨S8500000, .i32⟩ : BufTy).Contents (Elt F) → (⟨S8500000, .i1⟩ : BufTy).Contents (Elt F)),
    nullary main_c_3 (constantI S_ 32 500000#32),
    unary main_c_3 main_v17 (broadcastInDim S8500000 ![] bcast_S_S8500000 : (⟨S_, .i32⟩ : BufTy).Contents (Elt F) → (⟨S8500000, .i32⟩ : BufTy).Contents (Elt F)),
    binary main_v3 main_v17 main_v18 (addi : (⟨S8500000, .i32⟩ : BufTy).Contents (Elt F) → (⟨S8500000, .i32⟩ : BufTy).Contents (Elt F) → (⟨S8500000, .i32⟩ : BufTy).Contents (Elt F)),
    ternary main_v16 main_v18 main_v3 main_v19 (select : (⟨S8500000, .i1⟩ : BufTy).Contents (Elt F) → (⟨S8500000, .i32⟩ : BufTy).Contents (Elt F) → (⟨S8500000, .i32⟩ : BufTy).Contents (Elt F) → (⟨S8500000, .i32⟩ : BufTy).Contents (Elt F)),
    unary main_v19 main_v20 (broadcastInDim S8500000x1 ![0] bcast_S8500000_S8500000x1_0 : (⟨S8500000, .i32⟩ : BufTy).Contents (Elt F) → (⟨S8500000x1, .i32⟩ : BufTy).Contents (Elt F)),
    binary main_v14 main_v20 main_v21 ((fun x i => Host.gather gather_S500000_S8500000x1_S8500000_n_0_n_n_0_1_1 x i) : (⟨S500000, .f32⟩ : BufTy).Contents (Elt F) → (⟨S8500000x1, .i32⟩ : BufTy).Contents (Elt F) → (⟨S8500000, .f32⟩ : BufTy).Contents (Elt F)),
    nullary main_c_4 (constantI S_ 32 0#32),
    unary main_c_4 main_v22 (broadcastInDim S8500000 ![] bcast_S_S8500000 : (⟨S_, .i32⟩ : BufTy).Contents (Elt F) → (⟨S8500000, .i32⟩ : BufTy).Contents (Elt F)),
    binary main_v6 main_v22 main_v23 (cmpi .slt : (⟨S8500000, .i32⟩ : BufTy).Contents (Elt F) → (⟨S8500000, .i32⟩ : BufTy).Contents (Elt F) → (⟨S8500000, .i1⟩ : BufTy).Contents (Elt F)),
    nullary main_c_5 (constantI S_ 32 500000#32),
    unary main_c_5 main_v24 (broadcastInDim S8500000 ![] bcast_S_S8500000 : (⟨S_, .i32⟩ : BufTy).Contents (Elt F) → (⟨S8500000, .i32⟩ : BufTy).Contents (Elt F)),
    binary main_v6 main_v24 main_v25 (addi : (⟨S8500000, .i32⟩ : BufTy).Contents (Elt F) → (⟨S8500000, .i32⟩ : BufTy).Contents (Elt F) → (⟨S8500000, .i32⟩ : BufTy).Contents (Elt F)),
    ternary main_v23 main_v25 main_v6 main_v26 (select : (⟨S8500000, .i1⟩ : BufTy).Contents (Elt F) → (⟨S8500000, .i32⟩ : BufTy).Contents (Elt F) → (⟨S8500000, .i32⟩ : BufTy).Contents (Elt F) → (⟨S8500000, .i32⟩ : BufTy).Contents (Elt F)),
    unary main_v26 main_v27 (broadcastInDim S8500000x1 ![0] bcast_S8500000_S8500000x1_0 : (⟨S8500000, .i32⟩ : BufTy).Contents (Elt F) → (⟨S8500000x1, .i32⟩ : BufTy).Contents (Elt F)),
    binary main_v14 main_v27 main_v28 ((fun x i => Host.gather gather_S500000_S8500000x1_S8500000_n_0_n_n_0_1_1 x i) : (⟨S500000, .f32⟩ : BufTy).Contents (Elt F) → (⟨S8500000x1, .i32⟩ : BufTy).Contents (Elt F) → (⟨S8500000, .f32⟩ : BufTy).Contents (Elt F)),
    binary main_v21 main_v28 main_v29 (mulf : (⟨S8500000, .f32⟩ : BufTy).Contents (Elt F) → (⟨S8500000, .f32⟩ : BufTy).Contents (Elt F) → (⟨S8500000, .f32⟩ : BufTy).Contents (Elt F)),
    binary main_arg0 main_arg2 main_v30 ((fun l r => Host.dotGeneral dot_S500000x16_S16x16_S500000x16_1_0_0_1_n_n none l r) : (⟨S500000x16, .f32⟩ : BufTy).Contents (Elt F) → (⟨S16x16, .f32⟩ : BufTy).Contents (Elt F) → (⟨S500000x16, .f32⟩ : BufTy).Contents (Elt F)),
    nullary main_c_6 (constantI S_ 32 0#32),
    unary main_c_6 main_v31 (broadcastInDim S8500000 ![] bcast_S_S8500000 : (⟨S_, .i32⟩ : BufTy).Contents (Elt F) → (⟨S8500000, .i32⟩ : BufTy).Contents (Elt F)),
    binary main_v3 main_v31 main_v32 (cmpi .slt : (⟨S8500000, .i32⟩ : BufTy).Contents (Elt F) → (⟨S8500000, .i32⟩ : BufTy).Contents (Elt F) → (⟨S8500000, .i1⟩ : BufTy).Contents (Elt F)),
    nullary main_c_7 (constantI S_ 32 500000#32),
    unary main_c_7 main_v33 (broadcastInDim S8500000 ![] bcast_S_S8500000 : (⟨S_, .i32⟩ : BufTy).Contents (Elt F) → (⟨S8500000, .i32⟩ : BufTy).Contents (Elt F)),
    binary main_v3 main_v33 main_v34 (addi : (⟨S8500000, .i32⟩ : BufTy).Contents (Elt F) → (⟨S8500000, .i32⟩ : BufTy).Contents (Elt F) → (⟨S8500000, .i32⟩ : BufTy).Contents (Elt F)),
    ternary main_v32 main_v34 main_v3 main_v35 (select : (⟨S8500000, .i1⟩ : BufTy).Contents (Elt F) → (⟨S8500000, .i32⟩ : BufTy).Contents (Elt F) → (⟨S8500000, .i32⟩ : BufTy).Contents (Elt F) → (⟨S8500000, .i32⟩ : BufTy).Contents (Elt F)),
    unary main_v35 main_v36 (broadcastInDim S8500000x1 ![0] bcast_S8500000_S8500000x1_0 : (⟨S8500000, .i32⟩ : BufTy).Contents (Elt F) → (⟨S8500000x1, .i32⟩ : BufTy).Contents (Elt F)),
    binary main_v30 main_v36 main_v37 ((fun x i => Host.gather gather_S500000x16_S8500000x1_S8500000x16_1_0_n_n_0_1_116 x i) : (⟨S500000x16, .f32⟩ : BufTy).Contents (Elt F) → (⟨S8500000x1, .i32⟩ : BufTy).Contents (Elt F) → (⟨S8500000x16, .f32⟩ : BufTy).Contents (Elt F)),
    unary main_v29 main_v38 (broadcastInDim S8500000x1 ![0] bcast_S8500000_S8500000x1_0 : (⟨S8500000, .f32⟩ : BufTy).Contents (Elt F) → (⟨S8500000x1, .f32⟩ : BufTy).Contents (Elt F)),
    unary main_v38 main_v39 (broadcastInDim S8500000x16 ![0, 1] bcast_S8500000x1_S8500000x16_0_1 : (⟨S8500000x1, .f32⟩ : BufTy).Contents (Elt F) → (⟨S8500000x16, .f32⟩ : BufTy).Contents (Elt F)),
    binary main_v37 main_v39 main_v40 (mulf : (⟨S8500000x16, .f32⟩ : BufTy).Contents (Elt F) → (⟨S8500000x16, .f32⟩ : BufTy).Contents (Elt F) → (⟨S8500000x16, .f32⟩ : BufTy).Contents (Elt F)),
    nullary main_cst_8 (constant S_ .f32 0x00000000#32),
    unary main_cst_8 main_v41 (broadcastInDim S500000x16 ![] bcast_S_S500000x16 : (⟨S_, .f32⟩ : BufTy).Contents (Elt F) → (⟨S500000x16, .f32⟩ : BufTy).Contents (Elt F)),
    unary main_v6 main_v42 (broadcastInDim S8500000x1 ![0] bcast_S8500000_S8500000x1_0 : (⟨S8500000, .i32⟩ : BufTy).Contents (Elt F) → (⟨S8500000x1, .i32⟩ : BufTy).Contents (Elt F)),
    ternary main_v41 main_v42 main_v40 main_v43 ((fun x i u => Host.scatterAdd scatter_S500000x16_S8500000x1_S8500000x16_1_0_0_1 x i u) : (⟨S500000x16, .f32⟩ : BufTy).Contents (Elt F) → (⟨S8500000x1, .i32⟩ : BufTy).Contents (Elt F) → (⟨S8500000x16, .f32⟩ : BufTy).Contents (Elt F) → (⟨S500000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S500000x16 ![0, 1] bcast_S1x16_S500000x16_0_1 : (⟨S1x16, .f32⟩ : BufTy).Contents (Elt F) → (⟨S500000x16, .f32⟩ : BufTy).Contents (Elt F)),
    binary main_v43 main_v45 main_v46 (addf : (⟨S500000x16, .f32⟩ : BufTy).Contents (Elt F) → (⟨S500000x16, .f32⟩ : BufTy).Contents (Elt F) → (⟨S500000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S500000x16, .f32⟩) main_call1_v0) (broadcastInDim S500000x16 ![] bcast_S_S500000x16),
    TRef.binary (TRef.of (T := ⟨S500000x16, .f32⟩) main_v46) (TRef.of (T := ⟨S500000x16, .f32⟩) main_call1_v0) (TRef.of (T := ⟨S500000x16, .f32⟩) main_v47) maximumf,
    binary main_v47 main_arg4 main_v48 ((fun l r => Host.dotGeneral dot_S500000x16_S16x5_S500000x5_1_0_0_1_n_n none l r) : (⟨S500000x16, .f32⟩ : BufTy).Contents (Elt F) → (⟨S16x5, .f32⟩ : BufTy).Contents (Elt F) → (⟨S500000x5, .f32⟩ : BufTy).Contents (Elt F)),
    unary main_arg5 main_v49 (broadcastInDim S1x5 ![1] bcast_S5_S1x5_1 : (⟨S5, .f32⟩ : BufTy).Contents (Elt F) → (⟨S1x5, .f32⟩ : BufTy).Contents (Elt F)),
    unary main_v49 main_v50 (broadcastInDim S500000x5 ![0, 1] bcast_S1x5_S500000x5_0_1 : (⟨S1x5, .f32⟩ : BufTy).Contents (Elt F) → (⟨S500000x5, .f32⟩ : BufTy).Contents (Elt F)),
    binary main_v48 main_v50 main_v51 (addf : (⟨S500000x5, .f32⟩ : BufTy).Contents (Elt F) → (⟨S500000x5, .f32⟩ : BufTy).Contents (Elt F) → (⟨S500000x5, .f32⟩ : BufTy).Contents (Elt F)) ]

abbrev opsB : List (HloOp τ sig (Elt F)) :=
  [ TRef.nullary (TRef.of (T := ⟨S_, .f32⟩) main_call2_cst) (constant S_ .f32 0xFF800000#32),
    TRef.binary (TRef.of (T := ⟨S500000x5, .f32⟩) main_v51) (TRef.of (T := ⟨S_, .f32⟩) main_call2_cst) (TRef.of (T := ⟨S500000, .f32⟩) main_call2_v0) (fun x v => Host.reduce FloatOps.maximumf x v reducesTo_S500000x5_S500000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S500000, .f32⟩) main_call2_v1) (broadcastInDim S500000 ![] bcast_S_S500000),
    TRef.binary (TRef.of (T := ⟨S500000, .f32⟩) main_call2_v1) (TRef.of (T := ⟨S500000, .f32⟩) main_call2_v0) (TRef.of (T := ⟨S500000, .f32⟩) main_call2_v2) maximumf,
    TRef.unary (TRef.of (T := ⟨S500000, .f32⟩) main_call2_v2) (TRef.of (T := ⟨S500000x1, .f32⟩) main_call2_v3) (broadcastInDim S500000x1 ![0] bcast_S500000_S500000x1_0),
    TRef.unary (TRef.of (T := ⟨S500000x1, .f32⟩) main_call2_v3) (TRef.of (T := ⟨S500000x5, .f32⟩) main_call2_v4) (broadcastInDim S500000x5 ![0, 1] bcast_S500000x1_S500000x5_0_1),
    TRef.binary (TRef.of (T := ⟨S500000x5, .f32⟩) main_v51) (TRef.of (T := ⟨S500000x5, .f32⟩) main_call2_v4) (TRef.of (T := ⟨S500000x5, .f32⟩) main_call2_v5) subf,
    TRef.unary (TRef.of (T := ⟨S500000x5, .f32⟩) main_call2_v5) (TRef.of (T := ⟨S500000x5, .f32⟩) main_call2_v6) Host.exp,
    TRef.nullary (TRef.of (T := ⟨S_, .f32⟩) main_call2_cst_1) (constant S_ .f32 0x00000000#32),
    TRef.binary (TRef.of (T := ⟨S500000x5, .f32⟩) main_call2_v6) (TRef.of (T := ⟨S_, .f32⟩) main_call2_cst_1) (TRef.of (T := ⟨S500000, .f32⟩) main_call2_v7) (fun x v => Host.reduceAdd x v reducesTo_S500000x5_S500000_d1 h_S_),
    TRef.unary (TRef.of (T := ⟨S500000, .f32⟩) main_call2_v7) (TRef.of (T := ⟨S500000x1, .f32⟩) main_call2_v8) (broadcastInDim S500000x1 ![0] bcast_S500000_S500000x1_0),
    TRef.unary (TRef.of (T := ⟨S500000x1, .f32⟩) main_call2_v8) (TRef.of (T := ⟨S500000x1, .f32⟩) main_call2_v9) Host.log,
    TRef.unary (TRef.of (T := ⟨S500000x1, .f32⟩) main_call2_v9) (TRef.of (T := ⟨S500000x5, .f32⟩) main_call2_v10) (broadcastInDim S500000x5 ![0, 1] bcast_S500000x1_S500000x5_0_1),
    TRef.binary (TRef.of (T := ⟨S500000x5, .f32⟩) main_call2_v5) (TRef.of (T := ⟨S500000x5, .f32⟩) main_call2_v10) (TRef.of (T := ⟨S500000x5, .f32⟩) main_v52) subf ]

theorem ops_split : (ops : List (HloOp τ sig (Elt F))) = opsA ++ opsB := rfl

/-- Reading a value through a buffer's type and back is the identity. -/
theorem ofBuf_toBuf {T : BufTy} (x : TRef sig T) (v : T.Contents (Elt F)) : x.ofBuf (x.toBuf v) = v := by
  obtain ⟨r, rfl, _, _⟩ := x; rfl

/-- The contents after two stretches of operations are the second stretch's after the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

set_option maxRecDepth 16384 in
set_option maxHeartbeats 4000000 in
/-- After the first 65 operations the logits' buffer holds the logits' stage of the arguments. -/
theorem logits_eq (V : Valuation τ sig (Elt F)) :
    after (opsA (F := F)) V (Proc.devRef .tc main_v51) = val_main_v51 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  after_results_simp
  repeat (first
    | rw [reshape_result] | rw [unary_result] | rw [binary_result] | rw [nullary_result] | rw [ternary_result]
    | (rw [reshape_result_ne]; rotate_left; decide)
    | (rw [unary_result_ne]; rotate_left; decide)
    | (rw [binary_result_ne]; rotate_left; decide)
    | (rw [nullary_result_ne]; rotate_left; decide)
    | (rw [ternary_result_ne]; rotate_left; decide))
  rfl

set_option maxRecDepth 16384 in
set_option maxHeartbeats 4000000 in
/-- From contents whose logits' buffer holds the logits, the last 17 operations leave the result's stage in the result. -/
theorem tail_eq (W : Valuation τ sig (Elt F)) (x0 : (⟨S500000x16, .f32⟩ : BufTy).Contents (Elt F)) (x1 : (⟨S2x8000000, .i32⟩ : BufTy).Contents (Elt F)) (x2 : (⟨S16x16, .f32⟩ : BufTy).Contents (Elt F)) (x3 : (⟨S16, .f32⟩ : BufTy).Contents (Elt F)) (x4 : (⟨S16x5, .f32⟩ : BufTy).Contents (Elt F)) (x5 : (⟨S5, .f32⟩ : BufTy).Contents (Elt F))
    (hW : W (Proc.devRef .tc main_v51) = (TRef.of (T := ⟨S500000x5, .f32⟩) main_v51).toBuf (val_main_v51 (F := F) x0 x1 x2 x3 x4 x5)) :
    after (opsB (F := F)) W (Proc.devRef .tc main_v52) = val_main_v52 (F := F) x0 x1 x2 x3 x4 x5 := by
  after_results_simp
  rw [hW]
  simp only [ofBuf_toBuf]
  rfl

/-- After the whole line the result's buffer holds the result's stage of the arguments. -/
theorem out_eq (V : Valuation τ sig (Elt F)) :
    after (ops (F := F)) V (Proc.devRef .tc main_v52) = val_main_v52 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_split, after_append]
  exact tail_eq (after opsA V) _ _ _ _ _ _ ((logits_eq V).trans rfl)

set_option maxRecDepth 8192 in
set_option maxHeartbeats 32800000 in
/-- Every weakly fair execution of the reference terminates, nothing faulting, with the result at the last stage of the
    launch contents of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52) = val_main_v52 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v52).trans ((out_eq _).trans rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefValue

end
-- ==== Proof.KernelRun.lean ====
/-
  The idealized kernel program's run with its result named.

  The program is two pipelined regions among stretches of host operations. Every weakly fair execution terminates, nothing
  faulting, with the result buffer holding what the last boundary's contents `W6` say it holds — the second region's output
  array after all its write-backs — and every argument array as launched.
-/
import proofs.«170910_j54992761258609_1_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments end as launched. -/
theorem run_out : θ_run defs (onTc (τ := τ) (main (F := F))) ⟨m, fun _ => 0, ρ⟩ (fun r => ∀ c : Dev nD,
      r.2.mem ((c.tc : Thread nD τ).loc main_v46) = W6 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v46 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelRun

end
-- ==== Proof.RowSpec.lean ====
/-
  One node's row of the graph-convolution classifier, on the extended reals.

  After the edge aggregation every node carries sixteen features `a`. The classifier adds the convolution's bias `b`, cuts at
  zero, applies the 16 × 5 matrix `W`, adds the bias `c` — five logits per node — and takes the logarithm of the softmax
  of the five logits. Two arrangements of that last step occur:

    shift last  : L j − (M + log ∑ exp (L d − M))          with M the largest logit,
    shift first : (L j − M) − log (0 + ∑ exp (L d − M))     with M = max (−∞) (the largest logit).

  They are the same number whenever the logits are real numbers (RowLaws.lean); with an infinite logit they differ, which is
  why the proof carries the finiteness of every intermediate value from the inputs to the logits.
-/
import Idealize.ShloMosaic.PureOps.Ideal

noncomputable section

namespace Cert.RowSpec

open Idealize.ShloMosaic

/-- An extended real that is a real number (neither infinity). -/
def IsReal (x : EReal) : Prop := ∃ r : ℝ, x = (r : EReal)

/-- The float word of `0.0`, read on the extended reals. -/
abbrev zero32 : EReal := Ideal.ofBits .f32 0x00000000#32
/-- The float word of `−∞`, read on the extended reals. -/
abbrev negInf32 : EReal := Ideal.ofBits .f32 0xFF800000#32

/-- The logit `j` of a node with aggregated features `a`: `∑ₖ max (a k + b k) 0 · W k j + c j`. -/
def logit (a b : Fin 16 → EReal) (W : Fin 16 → Fin 5 → EReal) (c : Fin 5 → EReal) (j : Fin 5) : EReal :=
  (∑ k : Fin 16, max (a k + b k) zero32 * W k j) + c j

/-- The largest of five logits, folded from `−∞`. -/
def rowMax (L : Fin 5 → EReal) : EReal := (Finset.univ : Finset (Fin 5)).fold max negInf32 L

/-- The log-softmax with the shift subtracted last: `L j − (M + log ∑ exp (L d − M))`. -/
def lsmShiftLast (L : Fin 5 → EReal) (j : Fin 5) : EReal :=
  L j - (rowMax L + Ideal.log (∑ d : Fin 5, Ideal.exp (L d - rowMax L)))

/-- The log-softmax with the shift subtracted first: `(L j − M) − log (0 + ∑ exp (L d − M))`, `M = max (−∞) (rowMax L)`. -/
def lsmShiftFirst (L : Fin 5 → EReal) (j : Fin 5) : EReal :=
  (L j - max negInf32 (rowMax L)) - Ideal.log (zero32 + ∑ d : Fin 5, Ideal.exp (L d - max negInf32 (rowMax L)))

end Cert.RowSpec

end
-- ==== Proof.LibMatmulSum.lean ====
/-
  A matrix product with ONE contracted axis, read at an output index as a sum over that axis's positions.

  At the ideal instance a `tpu.matmul` into the zero accumulator, and the host's `dot_general`, are at every
  output index the sum over the contraction index of the products of the two operands' entries. When exactly one axis is
  contracted, the contraction index is one number `k < K`; if at the output index `j` the left operand is read at
  `L k` and the right one at `R k`, the entry is `∑ k : Fin K, lhs (L k) * rhs (R k)`. The two index facts are
  the only thing a caller supplies; they hold for any layout of the contracted and free axes.
-/
import Idealize.ShloMosaic.PureOps.Ideal.Laws
import Idealize.ShloMosaic.Lib.ValueIdx

noncomputable section

namespace Idealize.ShloMosaic.MatmulSum

open Idealize.ShloMosaic Idealize.ShloMosaic.ValueIdx

variable {sl sr so : Shape} {φ₁ φ₂ : FTy}

/-- A `tpu.matmul` into the zero splat with one contracted axis of extent `K`: at `j` it is the sum over `k < K` of the
    left operand at `L k` times the right operand at `R k`, where `L k` and `R k` are the operand indices the
    dimension numbers assign to output index `j` and contraction position `k`. -/
theorem matmul_zero_apply_single (D : DotDims sl sr so) (prec : Option ContractPrecision) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The host's `dot_general` with one contracted axis of extent `K`, read the same way. -/
theorem dotGeneral_apply_single (D : DotDims sl sr so) (prec : Option ContractPrecision) (sched : HostSchedule) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

end Idealize.ShloMosaic.MatmulSum

end
-- ==== Proof.LibPlainMatmul.lean ====
/-
  The plain matrix product, M×K by K×N, read at an output entry.

  For the dimension numbers that contract the left operand's second axis with the right operand's first one and have no
  batch axes, the left operand is read at (p, l) and the right one at (l, q) when the output index is (p, q) and the
  contraction position is l. Hence, at the ideal instance, a matrix product into the zero accumulator and the host's
  product are at (p, q) the sum over l < K of lhs (p, l) * rhs (l, q), for every M, K, N and operand formats.
-/
import Idealize.ShloMosaic.PureOps.Ideal.Laws
import Idealize.ShloMosaic.Lib.ValueIdx
import proofs.«170910_j54992761258609_1_alg».proof.Proof.LibMatmulSum

noncomputable section

namespace Idealize.ShloMosaic.PlainMatmul

open Idealize.ShloMosaic Idealize.ShloMosaic.ValueIdx

variable (M K N : Nat)

/-- On its first axis (a free axis) the left operand's index is the output index's first coordinate. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its second axis (the contracted one) the left operand's index is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- On its first axis (the contracted one) the right operand's index is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- On its second axis (a free axis) the right operand's index is the output index's second coordinate. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index (p, q) and contraction position l is (p, l). -/
theorem plain_lhsIdx (p : Fin M) (q : Fin N) (l : Fin K) :
    (DotDims.plain M K N).lhsIdx (ix2 p q) ((contrEquiv1 (DotDims.plain M K N) K rfl rfl).symm l) = ix2 p l :=
  funext fun a => Fin.ext (by
    match a with
    | ⟨0, _⟩ => exact plain_lhs_0 M K N _ _
    | ⟨1, _⟩ => exact (plain_lhs_1 M K N _ _).trans (contrEquiv1_symm_val (DotDims.plain M K N) K rfl rfl l))

/-- The right operand's index at output index (p, q) and contraction position l is (l, q). -/
theorem plain_rhsIdx (p : Fin M) (q : Fin N) (l : Fin K) :
    (DotDims.plain M K N).rhsIdx (ix2 p q) ((contrEquiv1 (DotDims.plain M K N) K rfl rfl).symm l) = ix2 l q :=
  funext fun a => Fin.ext (by
    match a with
    | ⟨0, _⟩ => exact (plain_rhs_0 M K N _ _).trans (contrEquiv1_symm_val (DotDims.plain M K N) K rfl rfl l)
    | ⟨1, _⟩ => exact plain_rhs_1 M K N _ _)

/-- A matrix product M×K by K×N into the zero accumulator is, at (p, q), the sum over l of lhs (p, l) * rhs (l, q). -/
theorem plain_matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ l : Fin K, lhs (ix2 p l) * rhs (ix2 l q) :=
  MatmulSum.matmul_zero_apply_single (DotDims.plain M K N) prec K rfl rfl lhs rhs (ix2 p q) (fun l => ix2 p l) (fun l => ix2 l q)
    (plain_lhsIdx M K N p q) (plain_rhsIdx M K N p q)

/-- The host's product M×K by K×N is, at (p, q), the sum over l of lhs (p, l) * rhs (l, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  MatmulSum.dotGeneral_apply_single (DotDims.plain M K N) prec sched K rfl rfl lhs rhs (ix2 p q) (fun l => ix2 p l) (fun l => ix2 l q)
    (plain_lhsIdx M K N p q) (plain_rhsIdx M K N p q)

end Idealize.ShloMosaic.PlainMatmul

end
-- ==== Proof.LibColumnLayout.lean ====
/-
  Column layouts read at an index, and a row sum at the ideal instance.

  A sum over the last axis of an `[a, b]` array taken with the axis kept leaves a column `[a, 1]`. Three re-layings of such a
  column occur around it: the cast of a vector `[a]` to the column `[a, 1]`, the cast of a column `[a, 1]` to the row `[1, a]`
  (the same `a` numbers in the same row-major order), and the broadcast of a column `[a, 1]` along a new second extent to
  `[a, b]`. Each, read at an index, is the operand at the evident index: entry `(i, 0)` of the column is entry `i` of the vector,
  entry `(0, i)` of the row is entry `(i, 0)` of the column, and entry `(p, c)` of the broadcast is entry `(p, 0)` of the column.
  The host's `broadcast_in_dim` of a vector to a column along axis 0 reads the same way.

  On the extended reals a sum along the second axis of an `[a, b]` array, at row `p`, is the sum over `d` of the entries
  `(p, d)` — for a vector reduction and for the host's reduction from an initial value alike.
-/
import Idealize.ShloMosaic.Lib.ValueLayout
import Idealize.ShloMosaic.PureOps.Ideal.Laws

noncomputable section

namespace Cert.LibColumnLayout

open Idealize.ShloMosaic Idealize.ShloMosaic.ValueIdx

variable {α : Type}

/-! ## A vector as a column, a column as a row, a column broadcast along rows -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to the row `[1, a]` reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of an `[a]` array to the column `[a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A sum along the second axis, on the extended reals -/

/-- A vector reduction by addition along the second axis of an `[a, b]` array, at row `p`: the sum of that row. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) : multiReduction .add [1] ⟨1, ![a]⟩ src acc h hφ hacc (ix1 p) = ∑ d : Fin b, src (ix2 p d) := by
  refine (Ideal.multiReduction_add_single src acc h hφ hacc (ix1 p)).trans ?_
  refine Finset.sum_congr rfl fun d _ => congrArg src ?_
  funext ax; apply Fin.ext
  match ax with
  | ⟨0, _⟩ => rfl
  | ⟨1, _⟩ => rfl

/-- The host's reduction by addition along the second axis from an initial value, at row `p`: the initial value plus the
    sum of that row. -/
theorem hostReduceAdd_rows_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ d : Fin b, x (ix2 p d) := by
  refine (Ideal.hostReduceAdd_single h' h x init (ix1 p)).trans ?_
  refine congrArg (init + ·) (Finset.sum_congr rfl fun d _ => congrArg x ?_)
  funext ax; apply Fin.ext
  match ax with
  | ⟨0, _⟩ => rfl
  | ⟨1, _⟩ => rfl

end Cert.LibColumnLayout

end
-- ==== Proof.KernelRows.lean ====
/-
  The two kernel bodies read at an index, on the extended reals.

  The first body stores the matrix product of a 10000 × 16 block of node features with the 16 × 16 weight matrix; the format
  changes before the product are the identity on extended reals. At (p, q) it is ∑ₗ x (p, l) · w (l, q).

  The second body takes a 10000 × 16 block of aggregated features, adds the bias row, cuts at zero, multiplies by the
  16 × 5 matrix, adds the second bias row — the five logits of each node of the block — and then takes the log-softmax of
  each row with the shift subtracted last: the row maximum M folded from −∞, the row sum S of exp (L − M), and L − (M + log S).
-/
import proofs.«170910_j54992761258609_1_alg».proof.Proof.Gen.KernelIdeal.Skeleton
import proofs.«170910_j54992761258609_1_alg».proof.Proof.RowSpec
import proofs.«170910_j54992761258609_1_alg».proof.Proof.LibPlainMatmul
import proofs.«170910_j54992761258609_1_alg».proof.Proof.LibColumnLayout
import Idealize.ShloMosaic.Lib.ValueLayout
import Idealize.ShloMosaic.Lib.ValueIdx
import Idealize.ShloMosaic.Lib.Pipeline.Value
import Idealize.ShloMosaic.PureOps.Ideal.Laws

noncomputable section

namespace Cert.KernelRows

open Idealize.ShloMosaic Idealize.ShloMosaic.ValueIdx Cert.KernelIdeal Cert.KernelIdeal.Gen Cert.RowSpec

/-! ## The dimension numbers are the plain matrix product's -/

theorem dot16_eq : dot_S10000x16_S16x16_S10000x16_1_0_0_1_n_n = DotDims.plain 10000 16 16 := rfl
theorem dot5_eq : dot_S10000x16_S16x5_S10000x5_1_0_0_1_n_n = DotDims.plain 10000 16 5 := rfl

/-! ## The first body: the projection of a block of node features -/

/-- The first body's stored value at (p, q): the product of row p of the block with column q of the weights. -/
theorem proj_apply (x0 : Vec Ideal S10000x16 .f32) (x1 : Vec Ideal S16x16 .f32) (p : Fin 10000) (q : Fin 16) :
    k0_pay1 (F := Ideal) x0 x1 (ix2 p q) = ∑ l : Fin 16, x0 (ix2 p l) * x1 (ix2 l q) :=
  PlainMatmul.plain_matmul_zero_apply 10000 16 16 none
    (truncf (F := Ideal) .bf16 (x0 : FVec Ideal S10000x16 .f32) bitsLt_bf16_f32)
    (truncf (F := Ideal) .bf16 (x1 : FVec Ideal S16x16 .f32) bitsLt_bf16_f32) p q

/-! ## The second body, first half: the logits of a block -/

/-- The five logits of every node of a block: the block plus the bias row, cut at zero, times the 16 × 5 matrix, plus the
    second bias row. The operations are those of the second body up to its first row reduction, in its order. -/
def logitsBlock (v0 : Vec Ideal S10000x16 .f32) (v2 : Vec Ideal S1x16 .f32) (v9 : Vec Ideal S16x5 .f32)
    (v12 : Vec Ideal S1x5 .f32) : FVec Ideal S10000x5 .f32 :=
  have v1 : FVec Ideal S10000x16 .f32 := shapeCast S10000x16 v0 shapeCasts_S10000x16_S10000x16
  have v3 : FVec Ideal S1x16 .f32 := shapeCast S1x16 v2 shapeCasts_S1x16_S1x16
  have v4 : FVec Ideal S10000x16 .f32 := broadcastTo S10000x16 v3 broadcasts_S1x16_S10000x16
  have v5 : FVec Ideal S10000x16 .f32 := addf v1 v4
  have cst : Ideal .f32 := Scalar.ofBits .f32 0x00000000#32
  have v6 : FVec Ideal S10000x16 .f32 := broadcast S10000x16 cst
  have v7 : FVec Ideal S10000x16 .f32 := maximumf v5 v6
  have v8 : FVec Ideal S10000x16 .bf16 := truncf .bf16 v7 bitsLt_bf16_f32
  have v10 : FVec Ideal S16x5 .bf16 := truncf .bf16 v9 bitsLt_bf16_f32
  have cst_5 : FVec Ideal S10000x5 .f32 := constant S10000x5 .f32 0x00000000#32
  have v11 : FVec Ideal S10000x5 .f32 := matmul dot_S10000x16_S16x5_S10000x5_1_0_0_1_n_n none v8 v10 cst_5
  have v13 : FVec Ideal S1x5 .f32 := shapeCast S1x5 v12 shapeCasts_S1x5_S1x5
  have v14 : FVec Ideal S10000x5 .f32 := broadcastTo S10000x5 v13 broadcasts_S1x5_S10000x5
  addf v11 v14

/-- The logits of node p of the block are the row's logits: `∑ₖ max (x (p, k) + b k) 0 · W (k, j) + c j`. -/
theorem logitsBlock_apply (x0 : Vec Ideal S10000x16 .f32) (x1 : Vec Ideal S1x16 .f32) (x2 : Vec Ideal S16x5 .f32)
    (x3 : Vec Ideal S1x5 .f32) (p : Fin 10000) (j : Fin 5) :
    logitsBlock x0 x1 x2 x3 (ix2 p j)
      = logit (fun k => x0 (ix2 p k)) (fun k => x1 (ix2 (0 : Fin 1) k)) (fun k j' => x2 (ix2 k j'))
          (fun j' => x3 (ix2 (0 : Fin 1) j')) j := by
  -- the bias rows, broadcast along the nodes, read at a node
  have hb16 : ∀ l : Fin 16, broadcastTo S10000x16 (shapeCast S1x16 x1 shapeCasts_S1x16_S1x16) broadcasts_S1x16_S10000x16 (ix2 p l)
      = x1 (ix2 (0 : Fin 1) l) := fun l => by
    rw [shapeCast_self]; exact broadcastTo_1b_ab_apply x1 _ p l
  have hb5 : broadcastTo S10000x5 (shapeCast S1x5 x3 shapeCasts_S1x5_S1x5) broadcasts_S1x5_S10000x5 (ix2 p j)
      = x3 (ix2 (0 : Fin 1) j) := by
    rw [shapeCast_self]; exact broadcastTo_1b_ab_apply x3 _ p j
  have h0 : ∀ l : Fin 16, shapeCast S10000x16 x0 shapeCasts_S10000x16_S10000x16 (ix2 p l) = x0 (ix2 p l) := fun l => by
    rw [shapeCast_self]
  unfold logitsBlock logit
  refine congrArg₂ (· + ·) ?_ hb5
  refine (PlainMatmul.plain_matmul_zero_apply 10000 16 5 none _ _ p j).trans ?_
  refine Finset.sum_congr rfl fun l _ => ?_
  show max (shapeCast S10000x16 x0 shapeCasts_S10000x16_S10000x16 (ix2 p l)
        + broadcastTo S10000x16 (shapeCast S1x16 x1 shapeCasts_S1x16_S1x16) broadcasts_S1x16_S10000x16 (ix2 p l))
      (Ideal.ofBits .f32 0x00000000#32) * x2 (ix2 l j) = _
  rw [h0 l, hb16 l]

/-! ## The second body, second half: the log-softmax of each row of logits -/

/-- The maximum along the second axis of a 10000 × 5 array, folded from the word of −∞, at row p: the largest of the
    row's five entries. -/
theorem rowMaxVec_apply (v : FVec Ideal S10000x5 .f32) (hφ : FKind.Formats .f32)
    (hacc : (0xFF800000#32 : BitVec 32) = FKind.maximumf.neutral .f32 hφ) (p : Fin 10000) :
    multiReduction .maximumf [1] S10000 v 0xFF800000#32 reduces_S10000x5_S10000 hφ hacc (ix1 p)
      = rowMax (fun d => v (ix2 p d)) := by
  refine (Ideal.multiReduction_maximumf_single v _ reduces_S10000x5_S10000 hφ hacc (ix1 p)).trans ?_
  unfold rowMax
  refine congrArg (fun f => (Finset.univ : Finset (Fin 5)).fold max negInf32 f) ?_
  funext d
  refine congrArg v ?_
  funext ax; apply Fin.ext
  match ax with
  | ⟨0, _⟩ => rfl
  | ⟨1, _⟩ => rfl

/-- The row maxima as a column. -/
def maxCol (L : FVec Ideal S10000x5 .f32) : FVec Ideal S10000x1 .f32 :=
  shapeCast S10000x1
    (multiReduction .maximumf [1] S10000 L 0xFF800000#32 reduces_S10000x5_S10000 (.inl rfl) rfl) shapeCasts_S10000_S10000x1

theorem maxCol_apply (L : FVec Ideal S10000x5 .f32) (p : Fin 10000) :
    maxCol L (ix2 p (0 : Fin 1)) = rowMax (fun d => L (ix2 p d)) :=
  (Cert.LibColumnLayout.shapeCast_a_a1_apply _ shapeCasts_S10000_S10000x1 p (0 : Fin 1)).trans (rowMaxVec_apply L _ _ p)

/-- The exponentials of the logits shifted by their row's maximum. -/
def shifted (L : FVec Ideal S10000x5 .f32) : FVec Ideal S10000x5 .f32 :=
  exp (subf L (broadcastTo S10000x5 (maxCol L) broadcasts_S10000x1_S10000x5))

theorem shifted_apply (L : FVec Ideal S10000x5 .f32) (p : Fin 10000) (d : Fin 5) :
    shifted L (ix2 p d) = Ideal.exp (L (ix2 p d) - rowMax (fun d' => L (ix2 p d'))) := by
  show Ideal.exp (L (ix2 p d) - broadcastTo S10000x5 (maxCol L) broadcasts_S10000x1_S10000x5 (ix2 p d)) = _
  rw [Cert.LibColumnLayout.broadcastTo_a1_ab_apply (maxCol L) broadcasts_S10000x1_S10000x5 p d, maxCol_apply]

/-- The row sums of the shifted exponentials as a column. -/
def sumCol (L : FVec Ideal S10000x5 .f32) : FVec Ideal S10000x1 .f32 :=
  shapeCast S10000x1
    (multiReduction .add [1] S10000 (shifted L) 0x00000000#32 reduces_S10000x5_S10000 (.inl rfl) rfl) shapeCasts_S10000_S10000x1

theorem sumCol_apply (L : FVec Ideal S10000x5 .f32) (p : Fin 10000) :
    sumCol L (ix2 p (0 : Fin 1)) = ∑ d : Fin 5, Ideal.exp (L (ix2 p d) - rowMax (fun d' => L (ix2 p d'))) :=
  (Cert.LibColumnLayout.shapeCast_a_a1_apply _ shapeCasts_S10000_S10000x1 p (0 : Fin 1)).trans
    ((Cert.LibColumnLayout.multiReduction_add_rows_apply (shifted L) _ reduces_S10000x5_S10000 _ _ p).trans
      (Finset.sum_congr rfl fun d _ => shifted_apply L p d))

/-- From the logits of a block to the stored value: `L − (M + log S)` with M the row maximum and S the row sum of
    `exp (L − M)`, each spread back along the row. -/
def lsmTail (L : FVec Ideal S10000x5 .f32) : FVec Ideal S10000x5 .f32 :=
  subf L (broadcastTo S10000x5 (addf (maxCol L) (log (sumCol L))) broadcasts_S10000x1_S10000x5)

theorem lsmTail_apply (L : FVec Ideal S10000x5 .f32) (p : Fin 10000) (j : Fin 5) :
    lsmTail L (ix2 p j) = lsmShiftLast (fun d => L (ix2 p d)) j := by
  show L (ix2 p j) - broadcastTo S10000x5 (addf (maxCol L) (log (sumCol L))) broadcasts_S10000x1_S10000x5 (ix2 p j) = _
  rw [Cert.LibColumnLayout.broadcastTo_a1_ab_apply (addf (maxCol L) (log (sumCol L))) broadcasts_S10000x1_S10000x5 p j]
  show L (ix2 p j) - (maxCol L (ix2 p (0 : Fin 1)) + Ideal.log (sumCol L (ix2 p (0 : Fin 1)))) = _
  rw [maxCol_apply, sumCol_apply]
  rfl

/-! ## The second body -/

/-- The second body is the log-softmax tail applied to the block's logits: the same operations in the same order. -/
theorem k1_pay1_eq (x0 : Vec Ideal S10000x16 .f32) (x1 : Vec Ideal S1x16 .f32) (x2 : Vec Ideal S16x5 .f32)
    (x3 : Vec Ideal S1x5 .f32) : k1_pay1 (F := Ideal) x0 x1 x2 x3 = lsmTail (logitsBlock x0 x1 x2 x3) := rfl

/-- The second body's stored value at (p, j): the log-softmax, shift subtracted last, of node p's five logits. -/
theorem final_apply (x0 : Vec Ideal S10000x16 .f32) (x1 : Vec Ideal S1x16 .f32) (x2 : Vec Ideal S16x5 .f32)
    (x3 : Vec Ideal S1x5 .f32) (p : Fin 10000) (j : Fin 5) :
    k1_pay1 (F := Ideal) x0 x1 x2 x3 (ix2 p j)
      = lsmShiftLast (logit (fun k => x0 (ix2 p k)) (fun k => x1 (ix2 (0 : Fin 1) k)) (fun k j' => x2 (ix2 k j'))
          (fun j' => x3 (ix2 (0 : Fin 1) j'))) j := by
  rw [k1_pay1_eq, lsmTail_apply]
  exact congrArg (fun L => lsmShiftLast L j) (funext fun d => logitsBlock_apply x0 x1 x2 x3 p d)

end Cert.KernelRows

end
-- ==== Proof.ArraySpec.lean ====
/-
  The two dense stages of the classifier as functions of whole arrays, index by index, on the extended reals:
  the projection  x ↦ x · W  of the node features, and the per-node classifier (bias, cut at zero, 16 × 5 matrix, bias,
  log-softmax with the shift subtracted last) applied to the aggregated features. The biases enter as rows [1, 16] and
  [1, 5]. Shapes are written out as literals so that both programs' spellings of them meet these definitions.
-/
import proofs.«170910_j54992761258609_1_alg».proof.Proof.RowSpec
import Idealize.ShloMosaic.Lib.ValueIdx

noncomputable section

namespace Cert.ArraySpec

open Idealize.ShloMosaic Idealize.ShloMosaic.ValueIdx Cert.RowSpec

/-- `x · W`: entry (i, q) is `∑ₗ x (i, l) · W (l, q)`. -/
def projArr (x : (⟨2, ![500000, 16]⟩ : Shape).Idx → EReal) (w : (⟨2, ![16, 16]⟩ : Shape).Idx → EReal) :
    (⟨2, ![500000, 16]⟩ : Shape).Idx → EReal :=
  fun i => ∑ l : Fin 16, x (ix2 (i 0) l) * w (ix2 l (i 1))

theorem projArr_ix2 (x : (⟨2, ![500000, 16]⟩ : Shape).Idx → EReal) (w : (⟨2, ![16, 16]⟩ : Shape).Idx → EReal)
    (p : Fin 500000) (q : Fin 16) : projArr x w (ix2 p q) = ∑ l : Fin 16, x (ix2 p l) * w (ix2 l q) := rfl

/-- The classifier's output: entry (i, j) is the log-softmax (shift last) of node i's five logits at j. -/
def outArr (agg : (⟨2, ![500000, 16]⟩ : Shape).Idx → EReal) (b : (⟨2, ![1, 16]⟩ : Shape).Idx → EReal)
    (w : (⟨2, ![16, 5]⟩ : Shape).Idx → EReal) (b5 : (⟨2, ![1, 5]⟩ : Shape).Idx → EReal) :
    (⟨2, ![500000, 5]⟩ : Shape).Idx → EReal :=
  fun i => lsmShiftLast (logit (fun k => agg (ix2 (i 0) k)) (fun k => b (ix2 (0 : Fin 1) k)) (fun k j => w (ix2 k j))
    (fun j => b5 (ix2 (0 : Fin 1) j))) (i 1)

theorem outArr_ix2 (agg : (⟨2, ![500000, 16]⟩ : Shape).Idx → EReal) (b : (⟨2, ![1, 16]⟩ : Shape).Idx → EReal)
    (w : (⟨2, ![16, 5]⟩ : Shape).Idx → EReal) (b5 : (⟨2, ![1, 5]⟩ : Shape).Idx → EReal) (p : Fin 500000) (j : Fin 5) :
    outArr agg b w b5 (ix2 p j)
      = lsmShiftLast (logit (fun k => agg (ix2 p k)) (fun k => b (ix2 (0 : Fin 1) k)) (fun k j' => w (ix2 k j'))
          (fun j' => b5 (ix2 (0 : Fin 1) j'))) j := rfl

end Cert.ArraySpec

end
-- ==== Proof.KernelArrays.lean ====
/-
  From the kernels' blocks to whole arrays.

  Each of the two kernels runs on a grid of 50 points; point t works on the block of rows 10000 t … 10000 t + 9999 of its
  row-blocked arrays and on the whole of every other array. What point t writes back is the body's stored value of the
  blocks it read. Read at (p, q) inside the block, the stored value is the same expression of the WHOLE arrays at row
  10000 t + p: a block's entry (p, l) is the array's entry (10000 t + p, l), and an array taken whole is itself. The 50
  blocks tile the 500000 rows (row r lies in block r / 10000), so after the last point the whole output array is that
  expression at every index: the projection x · W after the first kernel, the classifier's log-softmax after the second.
-/
import proofs.«170910_j54992761258609_1_alg».proof.Proof.Gen.KernelIdeal.Frame
import proofs.«170910_j54992761258609_1_alg».proof.Proof.RowSpec
import proofs.«170910_j54992761258609_1_alg».proof.Proof.KernelRows
import proofs.«170910_j54992761258609_1_alg».proof.Proof.ArraySpec
import Idealize.ShloMosaic.Lib.Pipeline.Value
import Idealize.ShloMosaic.Lib.ValueIdx

noncomputable section

namespace Cert.KernelArrays

open Idealize.ShloMosaic Idealize.ShloMosaic.ValueIdx Idealize.ShloMosaic.TcCoe Idealize.SL.Sem Cert.KernelIdeal Cert.KernelIdeal.Gen Cert.RowSpec Cert.ArraySpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The kernels' array references: window by window, the buffers the two pipelines read and write. -/
theorem arrRef_spec0 : Pipeline.arrRef spec0 0 = main_arg0 ∧ Pipeline.arrRef spec0 1 = main_arg2 ∧ Pipeline.arrRef spec0 2 = main_v30 :=
  ⟨rfl, rfl, rfl⟩
theorem arrRef_spec1 : Pipeline.arrRef spec1 0 = main_v43 ∧ Pipeline.arrRef spec1 1 = main_v44 ∧ Pipeline.arrRef spec1 2 = main_arg4
    ∧ Pipeline.arrRef spec1 3 = main_v45 ∧ Pipeline.arrRef spec1 4 = main_v46 :=
  ⟨rfl, rfl, rfl, rfl, rfl⟩

/-- Row `p` of the `t`-th block of 10000 rows is row `10000 t + p` of the array. -/
def blockRow (t : Nat) (h : t < 50) (p : Fin 10000) : Fin 500000 := ⟨t * 10000 + p.val, by have := p.isLt; omega⟩

theorem lt0 (t : Fin cfg0.N) : t.val < 50 := by have h : cfg0.N = 50 := N_0; have := t.isLt; omega
theorem lt1 (t : Fin cfg1.N) : t.val < 50 := by have h : cfg1.N = 50 := N_1; have := t.isLt; omega

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem iblk0_0_apply (c : Dev nD) (t : Fin cfg0.N) (p : Fin 10000) (l : Fin 16) :
    iblk0 V c 0 t (ix2 p l) = V c main_arg0 (ix2 (blockRow t.val (lt0 t) p) l) := by
  show V c main_arg0 (((cfg0.win 0).blk t).view.emb (ix2 p l)) = V c main_arg0 _
  refine congrArg _ ?_
  obtain ⟨e0, e1, e2, e3, e4, e5⟩ := idx_facts0 t
  funext a; apply Fin.ext
  match a with
  | ⟨0, _⟩ => show win0_0.index t (0 : Fin 2) * 10000 + 1 * p.val = t.val * 10000 + p.val; rw [e0]; omega
  | ⟨1, _⟩ => show win0_0.index t (1 : Fin 2) * 16 + 1 * l.val = l.val; rw [e1]; omega

theorem iblk0_1_apply (c : Dev nD) (t : Fin cfg0.N) (l : Fin 16) (q : Fin 16) :
    iblk0 V c 1 t (ix2 l q) = V c main_arg2 (ix2 l q) := by
  show V c main_arg2 (((cfg0.win 1).blk t).view.emb (ix2 l q)) = V c main_arg2 _
  refine congrArg _ ?_
  obtain ⟨e0, e1, e2, e3, e4, e5⟩ := idx_facts0 t
  funext a; apply Fin.ext
  match a with
  | ⟨0, _⟩ => show win0_1.index t (0 : Fin 2) * 16 + 1 * l.val = l.val; rw [e2]; omega
  | ⟨1, _⟩ => show win0_1.index t (1 : Fin 2) * 16 + 1 * q.val = q.val; rw [e3]; omega

theorem emb0_2_apply (t : Fin cfg0.N) (p : Fin 10000) (q : Fin 16) :
    ((cfg0.win 2).blk t).view.emb (ix2 p q) = ix2 (blockRow t.val (lt0 t) p) q := by
  obtain ⟨e0, e1, e2, e3, e4, e5⟩ := idx_facts0 t
  funext a; apply Fin.ext
  match a with
  | ⟨0, _⟩ => show win0_2.index t (0 : Fin 2) * 10000 + 1 * p.val = t.val * 10000 + p.val; rw [e4]; omega
  | ⟨1, _⟩ => show win0_2.index t (1 : Fin 2) * 16 + 1 * q.val = q.val; rw [e5]; omega

theorem flushed0_eq (c : Dev nD) (t : Fin cfg0.N) :
    (dat0 (F := Ideal) V c).flushed 2 t = ((cfg0.win 2).blk t).view.read (Elt Ideal) (projArr (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S10000x16) hz, View.ld_unit_zero (S := S16x16) hz]
  funext j
  obtain ⟨p, q, rfl⟩ : ∃ (p : Fin 10000) (q : Fin 16), j = ix2 p q := ⟨j 0, j 1, eq_ix2 j⟩
  show k0_pay1 (F := Ideal) (iblk0 V c 0 t) (iblk0 V c 1 t) (ix2 p q)
    = projArr (V c main_arg0) (V c main_arg2) (((cfg0.win 2).blk t).view.emb (ix2 p q))
  refine (Cert.KernelRows.proj_apply _ _ p q).trans ?_
  rw [emb0_2_apply, projArr_ix2]
  exact Finset.sum_congr rfl fun l _ => by rw [iblk0_0_apply, iblk0_1_apply]

/-- An index of the projected array is in point `t`'s block iff each coordinate is in the block's range on its axis. -/
theorem mem_blk0_2 (t : Fin cfg0.N) (i : S500000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v30).slice (win0_2.rect t)).set ↔ _
  rw [View.set_slice_whole, Rect.mem_set_unit]
  exact Iff.rfl

/-- Every row of the array lies in the block of the point numbered by the row's quotient by 10000. -/
theorem cover0_2 (i : S500000x16.Idx) :
    ∃ t : Fin cfg0.N, (cfg0.win 2).flush t = true ∧ i ∈ ((cfg0.win 2).blk t).view.set := by
  have hi0 : (i 0).val < 500000 := (i 0).isLt
  have hi1 : (i 1).val < 16 := (i 1).isLt
  have hN : cfg0.N = 50 := N_0
  let t : Fin cfg0.N := ⟨(i 0).val / 10000, by omega⟩
  obtain ⟨e0, e1, e2, e3, e4, e5⟩ := idx_facts0 t
  have ht : t.val = (i 0).val / 10000 := rfl
  refine ⟨t, flush0_2 t, ?_⟩
  rw [mem_blk0_2]
  intro a
  match a with
  | ⟨0, _⟩ => show win0_2.index t (0 : Fin 2) * 10000 ≤ (i 0).val ∧ (i 0).val < win0_2.index t (0 : Fin 2) * 10000 + 10000; rw [e4]; omega
  | ⟨1, _⟩ => show win0_2.index t (1 : Fin 2) * 16 ≤ (i 1).val ∧ (i 1).val < win0_2.index t (1 : Fin 2) * 16 + 16; rw [e5]; omega

/-- THE PROJECTED FEATURES after the first pipeline: the whole array is `x · W` of the two arrays the pipeline reads. -/
theorem xw_final (c : Dev nD) : (dat0 (F := Ideal) V c).arrAt 2 cfg0.N = projArr (V c main_arg0) (V c main_arg2) :=
  (dat0 (F := Ideal) V c).arrAt_eq_of_cover 2 (projArr (V c main_arg0) (V c main_arg2))
    (fun t _ => flushed0_eq V c t) cover0_2

/-! ## The second pipeline: the classifier -/

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (p, k) of point `t`'s block of the aggregated features is the array's entry (10000 t + p, k). -/
theorem iblk1_0_apply (c : Dev nD) (t : Fin cfg1.N) (p : Fin 10000) (k : Fin 16) :
    iblk1 V c 0 t (ix2 p k) = V c main_v43 (ix2 (blockRow t.val (lt1 t) p) k) := by
  show V c main_v43 (((cfg1.win 0).blk t).view.emb (ix2 p k)) = V c main_v43 _
  refine congrArg _ ?_
  obtain ⟨e0, e1, -⟩ := idx_facts1 t
  funext a; apply Fin.ext
  match a with
  | ⟨0, _⟩ => show win1_0.index t (0 : Fin 2) * 10000 + 1 * p.val = t.val * 10000 + p.val; rw [e0]; omega
  | ⟨1, _⟩ => show win1_0.index t (1 : Fin 2) * 16 + 1 * k.val = k.val; rw [e1]; omega

/-- The first bias row is taken whole at every point. -/
theorem iblk1_1_apply (c : Dev nD) (t : Fin cfg1.N) (z : Fin 1) (k : Fin 16) :
    iblk1 V c 1 t (ix2 z k) = V c main_v44 (ix2 z k) := by
  show V c main_v44 (((cfg1.win 1).blk t).view.emb (ix2 z k)) = V c main_v44 _
  refine congrArg _ ?_
  obtain ⟨-, -, e2, e3, -⟩ := idx_facts1 t
  funext a; apply Fin.ext
  match a with
  | ⟨0, _⟩ => show win1_1.index t (0 : Fin 2) * 1 + 1 * z.val = z.val; rw [e2]; omega
  | ⟨1, _⟩ => show win1_1.index t (1 : Fin 2) * 16 + 1 * k.val = k.val; rw [e3]; omega

/-- The 16 × 5 matrix is taken whole at every point. -/
theorem iblk1_2_apply (c : Dev nD) (t : Fin cfg1.N) (k : Fin 16) (j : Fin 5) :
    iblk1 V c 2 t (ix2 k j) = V c main_arg4 (ix2 k j) := by
  show V c main_arg4 (((cfg1.win 2).blk t).view.emb (ix2 k j)) = V c main_arg4 _
  refine congrArg _ ?_
  obtain ⟨-, -, -, -, e4, e5, -⟩ := idx_facts1 t
  funext a; apply Fin.ext
  match a with
  | ⟨0, _⟩ => show win1_2.index t (0 : Fin 2) * 16 + 1 * k.val = k.val; rw [e4]; omega
  | ⟨1, _⟩ => show win1_2.index t (1 : Fin 2) * 5 + 1 * j.val = j.val; rw [e5]; omega

/-- The second bias row is taken whole at every point. -/
theorem iblk1_3_apply (c : Dev nD) (t : Fin cfg1.N) (z : Fin 1) (j : Fin 5) :
    iblk1 V c 3 t (ix2 z j) = V c main_v45 (ix2 z j) := by
  show V c main_v45 (((cfg1.win 3).blk t).view.emb (ix2 z j)) = V c main_v45 _
  refine congrArg _ ?_
  obtain ⟨-, -, -, -, -, -, e6, e7, -⟩ := idx_facts1 t
  funext a; apply Fin.ext
  match a with
  | ⟨0, _⟩ => show win1_3.index t (0 : Fin 2) * 1 + 1 * z.val = z.val; rw [e6]; omega
  | ⟨1, _⟩ => show win1_3.index t (1 : Fin 2) * 5 + 1 * j.val = j.val; rw [e7]; omega

/-- Entry (p, j) of point `t`'s output block is the output array's entry (10000 t + p, j). -/
theorem emb1_4_apply (t : Fin cfg1.N) (p : Fin 10000) (j : Fin 5) :
    ((cfg1.win 4).blk t).view.emb (ix2 p j) = ix2 (blockRow t.val (lt1 t) p) j := by
  obtain ⟨-, -, -, -, -, -, -, -, e8, e9⟩ := idx_facts1 t
  funext a; apply Fin.ext
  match a with
  | ⟨0, _⟩ => show win1_4.index t (0 : Fin 2) * 10000 + 1 * p.val = t.val * 10000 + p.val; rw [e8]; omega
  | ⟨1, _⟩ => show win1_4.index t (1 : Fin 2) * 5 + 1 * j.val = j.val; rw [e9]; omega

/-- WHAT POINT `t` WRITES BACK is block `t` of the classifier's output of the four arrays the pipeline reads. -/
theorem flushed1_eq (c : Dev nD) (t : Fin cfg1.N) :
    (dat1 (F := Ideal) V c).flushed 4 t = ((cfg1.win 4).blk t).view.read (Elt Ideal)
      (outArr (V c main_v43) (V c main_v44) (V c main_arg4) (V c main_v45)) := by
  show (cfg1.win 4).cut (grid1.coords t) ((dat1 (F := Ideal) V c).after 4 t) = _
  rw [after1_4]
  unfold out1_4
  rw [View.canon_unit_zero hz]
  simp only [View.ld_unit_zero (S := S10000x16) hz, View.ld_unit_zero (S := S1x16) hz, View.ld_unit_zero (S := S16x5) hz,
    View.ld_unit_zero (S := S1x5) hz]
  funext i
  obtain ⟨p, j, rfl⟩ : ∃ (p : Fin 10000) (j : Fin 5), i = ix2 p j := ⟨i 0, i 1, eq_ix2 i⟩
  show k1_pay1 (F := Ideal) (iblk1 V c 0 t) (iblk1 V c 1 t) (iblk1 V c 2 t) (iblk1 V c 3 t) (ix2 p j)
    = outArr (V c main_v43) (V c main_v44) (V c main_arg4) (V c main_v45) (((cfg1.win 4).blk t).view.emb (ix2 p j))
  refine (Cert.KernelRows.final_apply _ _ _ _ p j).trans ?_
  rw [emb1_4_apply, outArr_ix2]
  simp only [iblk1_0_apply, iblk1_1_apply, iblk1_2_apply, iblk1_3_apply]

/-- An index of the output array is in point `t`'s block iff each coordinate is in the block's range on its axis. -/
theorem mem_blk1_4 (t : Fin cfg1.N) (i : S500000x5.Idx) :
    i ∈ ((cfg1.win 4).blk t).view.set ↔ ∀ a : Fin 2, win1_4.index t a * S10000x5.size a ≤ (i a).val ∧ (i a).val < win1_4.index t a * S10000x5.size a + S10000x5.size a := by
  show i ∈ ((View.whole main_v46).slice (win1_4.rect t)).set ↔ _
  rw [View.set_slice_whole, Rect.mem_set_unit]
  exact Iff.rfl

/-- Every row of the output array lies in the block of the point numbered by the row's quotient by 10000. -/
theorem cover1_4 (i : S500000x5.Idx) :
    ∃ t : Fin cfg1.N, (cfg1.win 4).flush t = true ∧ i ∈ ((cfg1.win 4).blk t).view.set := by
  have hi0 : (i 0).val < 500000 := (i 0).isLt
  have hi1 : (i 1).val < 5 := (i 1).isLt
  have hN : cfg1.N = 50 := N_1
  let t : Fin cfg1.N := ⟨(i 0).val / 10000, by omega⟩
  obtain ⟨-, -, -, -, -, -, -, -, e8, e9⟩ := idx_facts1 t
  have ht : t.val = (i 0).val / 10000 := rfl
  refine ⟨t, flush1_4 t, ?_⟩
  rw [mem_blk1_4]
  intro a
  match a with
  | ⟨0, _⟩ => show win1_4.index t (0 : Fin 2) * 10000 ≤ (i 0).val ∧ (i 0).val < win1_4.index t (0 : Fin 2) * 10000 + 10000; rw [e8]; omega
  | ⟨1, _⟩ => show win1_4.index t (1 : Fin 2) * 5 ≤ (i 1).val ∧ (i 1).val < win1_4.index t (1 : Fin 2) * 5 + 5; rw [e9]; omega

/-- THE CLASSIFIER'S OUTPUT after the second pipeline: the whole array is the log-softmax of every node's logits, as
    one function of the four arrays the pipeline reads. -/
theorem out_final (c : Dev nD) :
    (dat1 (F := Ideal) V c).arrAt 4 cfg1.N = outArr (V c main_v43) (V c main_v44) (V c main_arg4) (V c main_v45) :=
  (dat1 (F := Ideal) V c).arrAt_eq_of_cover 4 (outArr (V c main_v43) (V c main_v44) (V c main_arg4) (V c main_v45))
    (fun t _ => flushed1_eq V c t) cover1_4

end Cert.KernelArrays

end
-- ==== Proof.KernelValues.lean ====
/-
  The kernel program's buffer contents at its region boundaries.

  Around its two device regions the kernel program runs host operations: before the first region the edge list is split into
  its source and target rows, self loops are appended, the in-degrees are counted, inverted under a square root and gathered
  back along the edges into the per-edge weights; between the regions the projected features are gathered along the edges,
  scaled by the weights and summed into their target nodes, and the two bias vectors are laid out as one-row matrices.
  These are operation for operation the reference's own first stages. This file evaluates the fold of host operations at the
  buffers the regions read and states each as the reference's stage function of the launch arguments.
-/
import proofs.«170910_j54992761258609_1_alg».proof.Proof.Gen.KernelIdeal.Frame
import proofs.«170910_j54992761258609_1_alg».proof.Proof.RefRead
import Idealize.ShloMosaic.Lib.StableHlo.Run

noncomputable section

namespace Cert.KernelValues

open Cert.KernelIdeal Cert.KernelIdeal.Gen Idealize.ShloMosaic Idealize.ShloMosaic.TcCoe Idealize.SL.Sem Idealize.ShloMosaic.StableHlo
open Cert.KernelIdeal.Facts₀ Cert.KernelIdeal.Facts

variable (m : (ℓ : Loc nD τ sig) → Buf (Elt Ideal) ℓ) (ρ : Dev nD → PrngReg) (c : Dev nD)

/-- A reference cast to its buffer type and back is the value it was. -/
theorem ofBuf_toBuf {T : BufTy} (x : TRef sig T) (v : T.Contents (Elt Ideal)) : x.ofBuf (x.toBuf v) = v := by
  obtain ⟨r, rfl, _, _⟩ := x; rfl

/-- A value cast to a reference's buffer type is that value. -/
theorem toBuf_heq {T : BufTy} (x : TRef sig T) (v : T.Contents (Elt Ideal)) : HEq (x.toBuf v) v := by
  obtain ⟨r, rfl, _, _⟩ := x; rfl

/-- Evaluates a fold of host operations at one buffer: each operation's result at its own buffer is its function of its
    operands' contents, and at any other buffer what was there before. -/
local macro "host_results" : tactic =>
  `(tactic| ((try after_results_simp); repeat (first
        | rw [reshape_result] | rw [unary_result] | rw [binary_result] | rw [nullary_result] | rw [ternary_result]
        | (rw [reshape_result_ne]; rotate_left; decide)
        | (rw [unary_result_ne]; rotate_left; decide)
        | (rw [binary_result_ne]; rotate_left; decide)
        | (rw [nullary_result_ne]; rotate_left; decide)
        | (rw [ternary_result_ne]; rotate_left; decide))))

/-! ## The first stretch: the edge rows, the degrees, the inverse square roots -/

set_option maxRecDepth 16384 in
set_option maxHeartbeats 4000000 in
/-- After the first stretch, from any contents: the source row of the edge list with the self loops appended, as the reference computes it from the edge list. -/
theorem ops0_v3 (V : Valuation τ sig (Elt Ideal)) :
    after hostOps0 V (Proc.devRef .tc main_v3) = Cert.ReferenceIdeal.ReadP.val_main_v3 (F := Ideal) (V (Proc.devRef .tc main_arg1)) := by
  dsimp only [hostOps0]
  host_results
  rfl

set_option maxRecDepth 16384 in
set_option maxHeartbeats 4000000 in
/-- After the first stretch, from any contents: the target row of the edge list with the self loops appended, as the reference computes it from the edge list. -/
theorem ops0_v6 (V : Valuation τ sig (Elt Ideal)) :
    after hostOps0 V (Proc.devRef .tc main_v6) = Cert.ReferenceIdeal.ReadP.val_main_v6 (F := Ideal) (V (Proc.devRef .tc main_arg1)) := by
  dsimp only [hostOps0]
  host_results
  rfl

set_option maxRecDepth 16384 in
set_option maxHeartbeats 4000000 in
/-- After the first stretch, from any contents: the flags of the nodes of positive degree, as the reference computes it from the edge list. -/
theorem ops0_v12 (V : Valuation τ sig (Elt Ideal)) :
    after hostOps0 V (Proc.devRef .tc main_v12) = Cert.ReferenceIdeal.ReadP.val_main_v12 (F := Ideal) (V (Proc.devRef .tc main_arg1)) := by
  dsimp only [hostOps0]
  host_results
  rfl

set_option maxRecDepth 16384 in
set_option maxHeartbeats 4000000 in
/-- After the first stretch, from any contents: the inverse square roots of the degrees, as the reference computes it from the edge list. -/
theorem ops0_v13 (V : Valuation τ sig (Elt Ideal)) :
    after hostOps0 V (Proc.devRef .tc main_v13) = Cert.ReferenceIdeal.ReadP.val_main_v13 (F := Ideal) (V (Proc.devRef .tc main_arg1)) := by
  dsimp only [hostOps0]
  host_results
  rfl

set_option maxRecDepth 16384 in
set_option maxHeartbeats 4000000 in
/-- After the first stretch, from any contents: the zero that replaces the inverse square root at a node of degree zero. -/
theorem ops0_cst_2 (V : Valuation τ sig (Elt Ideal)) :
    after hostOps0 V (Proc.devRef .tc main_cst_2) = Cert.ReferenceIdeal.ReadP.val_main_cst_2 (F := Ideal) := by
  dsimp only [hostOps0]
  host_results
  rfl

/-! ## The second stretch: zero where the degree is zero -/

set_option maxRecDepth 16384 in
set_option maxHeartbeats 4000000 in
/-- After the second stretch, from contents that hold the flags, the inverse square roots and the zero: the inverse square roots of the degrees, zero at a node of degree zero. -/
theorem ops0_1_v14 (V : Valuation τ sig (Elt Ideal)) (x1 : (⟨Cert.ReferenceIdeal.S2x8000000, .i32⟩ : BufTy).Contents (Elt Ideal))
    (h12 : V (Proc.devRef .tc main_v12) = Cert.ReferenceIdeal.ReadP.val_main_v12 (F := Ideal) x1) (h13 : V (Proc.devRef .tc main_v13) = Cert.ReferenceIdeal.ReadP.val_main_v13 (F := Ideal) x1)
    (hc : V (Proc.devRef .tc main_cst_2) = Cert.ReferenceIdeal.ReadP.val_main_cst_2 (F := Ideal)) :
    after hostOps0_1 V (Proc.devRef .tc main_v14) = Cert.ReferenceIdeal.ReadP.val_main_v14 (F := Ideal) x1 := by
  have h12' : V (Proc.devRef .tc main_v12) = (TRef.of (T := ⟨S500000, .i1⟩) main_v12).toBuf (Cert.ReferenceIdeal.ReadP.val_main_v12 (F := Ideal) x1) := h12.trans rfl
  have h13' : V (Proc.devRef .tc main_v13) = (TRef.of (T := ⟨S500000, .f32⟩) main_v13).toBuf (Cert.ReferenceIdeal.ReadP.val_main_v13 (F := Ideal) x1) := h13.trans rfl
  have hc' : V (Proc.devRef .tc main_cst_2) = (TRef.of (T := ⟨S_, .f32⟩) main_cst_2).toBuf (Cert.ReferenceIdeal.ReadP.val_main_cst_2 (F := Ideal)) := hc.trans rfl
  dsimp only [hostOps0_1]
  host_results
  rw [h12', h13', hc']
  simp only [ofBuf_toBuf]
  refine eq_of_heq ((toBuf_heq _ _).trans (heq_of_eq ?_))
  rfl

/-! ## The third stretch: the per-edge weights -/

set_option maxRecDepth 16384 in
set_option maxHeartbeats 4000000 in
/-- After the third stretch, from contents that hold the two edge rows and the inverse square roots: the per-edge weights, the product of the inverse square roots at the two endpoints. -/
theorem ops0_2_v29 (V : Valuation τ sig (Elt Ideal)) (x1 : (⟨Cert.ReferenceIdeal.S2x8000000, .i32⟩ : BufTy).Contents (Elt Ideal))
    (h3 : V (Proc.devRef .tc main_v3) = Cert.ReferenceIdeal.ReadP.val_main_v3 (F := Ideal) x1) (h6 : V (Proc.devRef .tc main_v6) = Cert.ReferenceIdeal.ReadP.val_main_v6 (F := Ideal) x1)
    (h14 : V (Proc.devRef .tc main_v14) = Cert.ReferenceIdeal.ReadP.val_main_v14 (F := Ideal) x1) :
    after hostOps0_2 V (Proc.devRef .tc main_v29) = Cert.ReferenceIdeal.ReadP.val_main_v29 (F := Ideal) x1 := by
  dsimp only [hostOps0_2]
  host_results
  rw [h3, h6, h14]
  rfl

/-! ## The stretch between the regions: the aggregation, and the two biases as one-row matrices -/

set_option maxRecDepth 16384 in
set_option maxHeartbeats 4000000 in
/-- After the stretch between the regions, from contents that hold the projected features, the two edge rows and the per-edge weights: the aggregated features, the weighted sum over each node's incoming edges. -/
theorem ops1_v43 (V : Valuation τ sig (Elt Ideal)) (x0 : (⟨Cert.ReferenceIdeal.S500000x16, .f32⟩ : BufTy).Contents (Elt Ideal)) (x1 : (⟨Cert.ReferenceIdeal.S2x8000000, .i32⟩ : BufTy).Contents (Elt Ideal)) (x2 : (⟨Cert.ReferenceIdeal.S16x16, .f32⟩ : BufTy).Contents (Elt Ideal))
    (h30 : V (Proc.devRef .tc main_v30) = Cert.ReferenceIdeal.ReadP.val_main_v30 (F := Ideal) x0 x2) (h3 : V (Proc.devRef .tc main_v3) = Cert.ReferenceIdeal.ReadP.val_main_v3 (F := Ideal) x1)
    (h6 : V (Proc.devRef .tc main_v6) = Cert.ReferenceIdeal.ReadP.val_main_v6 (F := Ideal) x1) (h29 : V (Proc.devRef .tc main_v29) = Cert.ReferenceIdeal.ReadP.val_main_v29 (F := Ideal) x1) :
    after hostOps1 V (Proc.devRef .tc main_v43) = Cert.ReferenceIdeal.ReadP.val_main_v43 (F := Ideal) x0 x1 x2 := by
  dsimp only [hostOps1]
  host_results
  rw [h30, h3, h6, h29]
  rfl

set_option maxRecDepth 16384 in
set_option maxHeartbeats 4000000 in
/-- After the stretch between the regions, from any contents: the convolution's bias as a one-row matrix. -/
theorem ops1_v44 (V : Valuation τ sig (Elt Ideal)) :
    after hostOps1 V (Proc.devRef .tc main_v44) = shapeCast S1x16 (V (Proc.devRef .tc main_arg3)) Facts₀.shapeCasts_S16_S1x16 := by
  dsimp only [hostOps1]
  host_results
  rfl

set_option maxRecDepth 16384 in
set_option maxHeartbeats 4000000 in
/-- After the stretch between the regions, from any contents: the classifier's bias as a one-row matrix. -/
theorem ops1_v45 (V : Valuation τ sig (Elt Ideal)) :
    after hostOps1 V (Proc.devRef .tc main_v45) = shapeCast S1x5 (V (Proc.devRef .tc main_arg5)) Facts₀.shapeCasts_S5_S1x5 := by
  dsimp only [hostOps1]
  host_results
  rfl

/-! ## The contents at the first region's entry -/

set_option maxRecDepth 16384 in
set_option maxHeartbeats 4000000 in
/-- After the second stretch the source row of the edge list, self loops appended, is the reference's. -/
theorem W2_row :
    W2 m ρ c (Proc.devRef .tc main_v3) = Cert.ReferenceIdeal.ReadP.val_main_v3 (F := Ideal) (m ((c : Thread nD τ).loc main_arg1)) := by
  dsimp only [W2, W1, hostOps0, hostOps0_1]
  host_results
  rfl

set_option maxRecDepth 16384 in
set_option maxHeartbeats 4000000 in
/-- After the second stretch the target row of the edge list, self loops appended, is the reference's. -/
theorem W2_col :
    W2 m ρ c (Proc.devRef .tc main_v6) = Cert.ReferenceIdeal.ReadP.val_main_v6 (F := Ideal) (m ((c : Thread nD τ).loc main_arg1)) := by
  dsimp only [W2, W1, hostOps0, hostOps0_1]
  host_results
  rfl

/-- After the second stretch the inverse square roots of the degrees, zero at a node of degree zero, are the reference's. -/
theorem W2_dinv :
    W2 m ρ c (Proc.devRef .tc main_v14) = Cert.ReferenceIdeal.ReadP.val_main_v14 (F := Ideal) (m ((c : Thread nD τ).loc main_arg1)) :=
  ops0_1_v14 (W1 m ρ c) (m ((c : Thread nD τ).loc main_arg1)) (ops0_v12 (W0 m ρ c)) (ops0_v13 (W0 m ρ c)) (ops0_cst_2 (W0 m ρ c))

set_option maxRecDepth 16384 in
set_option maxHeartbeats 4000000 in
/-- At the first region's entry the source row of the edge list, self loops appended, is the reference's. -/
theorem W3_row :
    W3 m ρ c (Proc.devRef .tc main_v3) = Cert.ReferenceIdeal.ReadP.val_main_v3 (F := Ideal) (m ((c : Thread nD τ).loc main_arg1)) := by
  dsimp only [W3, W2, W1, hostOps0, hostOps0_1, hostOps0_2]
  host_results
  rfl

set_option maxRecDepth 16384 in
set_option maxHeartbeats 4000000 in
/-- At the first region's entry the target row of the edge list, self loops appended, is the reference's. -/
theorem W3_col :
    W3 m ρ c (Proc.devRef .tc main_v6) = Cert.ReferenceIdeal.ReadP.val_main_v6 (F := Ideal) (m ((c : Thread nD τ).loc main_arg1)) := by
  dsimp only [W3, W2, W1, hostOps0, hostOps0_1, hostOps0_2]
  host_results
  rfl

/-- At the first region's entry the per-edge weights are the reference's. -/
theorem W3_norm :
    W3 m ρ c (Proc.devRef .tc main_v29) = Cert.ReferenceIdeal.ReadP.val_main_v29 (F := Ideal) (m ((c : Thread nD τ).loc main_arg1)) :=
  ops0_2_v29 (W2 m ρ c) (m ((c : Thread nD τ).loc main_arg1)) (W2_row m ρ c) (W2_col m ρ c) (W2_dinv m ρ c)

set_option maxRecDepth 16384 in
set_option maxHeartbeats 4000000 in
/-- No host operation before the first region writes the node features: it is as launched. -/
theorem W3_arg0 :
    W3 m ρ c (Proc.devRef .tc main_arg0) = m ((c : Thread nD τ).loc main_arg0) := by
  dsimp only [W3, W2, W1, hostOps0, hostOps0_1, hostOps0_2]
  after_results_simp

set_option maxRecDepth 16384 in
set_option maxHeartbeats 4000000 in
/-- No host operation before the first region writes the convolution's matrix: it is as launched. -/
theorem W3_arg2 :
    W3 m ρ c (Proc.devRef .tc main_arg2) = m ((c : Thread nD τ).loc main_arg2) := by
  dsimp only [W3, W2, W1, hostOps0, hostOps0_1, hostOps0_2]
  after_results_simp

set_option maxRecDepth 16384 in
set_option maxHeartbeats 4000000 in
/-- No host operation before the first region writes the convolution's bias: it is as launched. -/
theorem W3_arg3 :
    W3 m ρ c (Proc.devRef .tc main_arg3) = m ((c : Thread nD τ).loc main_arg3) := by
  dsimp only [W3, W2, W1, hostOps0, hostOps0_1, hostOps0_2]
  after_results_simp

set_option maxRecDepth 16384 in
set_option maxHeartbeats 4000000 in
/-- No host operation before the first region writes the classifier's matrix: it is as launched. -/
theorem W3_arg4 :
    W3 m ρ c (Proc.devRef .tc main_arg4) = m ((c : Thread nD τ).loc main_arg4) := by
  dsimp only [W3, W2, W1, hostOps0, hostOps0_1, hostOps0_2]
  after_results_simp

set_option maxRecDepth 16384 in
set_option maxHeartbeats 4000000 in
/-- No host operation before the first region writes the classifier's bias: it is as launched. -/
theorem W3_arg5 :
    W3 m ρ c (Proc.devRef .tc main_arg5) = m ((c : Thread nD τ).loc main_arg5) := by
  dsimp only [W3, W2, W1, hostOps0, hostOps0_1, hostOps0_2]
  after_results_simp

/-! ## The contents at the second region's entry -/

/-- At the second region's entry the aggregated features are the reference's, once the first region has left the projected features x · W in their buffer. -/
theorem W5_agg (hxw : W4 m ρ c (Proc.devRef .tc main_v30) = Cert.ReferenceIdeal.ReadP.val_main_v30 (F := Ideal) (m ((c : Thread nD τ).loc main_arg0)) (m ((c : Thread nD τ).loc main_arg2))) :
    W5 m ρ c (Proc.devRef .tc main_v43) = Cert.ReferenceIdeal.ReadP.val_main_v43 (F := Ideal) (m ((c : Thread nD τ).loc main_arg0)) (m ((c : Thread nD τ).loc main_arg1)) (m ((c : Thread nD τ).loc main_arg2)) :=
  ops1_v43 (W4 m ρ c) (m ((c : Thread nD τ).loc main_arg0)) (m ((c : Thread nD τ).loc main_arg1)) (m ((c : Thread nD τ).loc main_arg2)) hxw
    ((W4_of_ne m ρ c main_v3 (by decide)).trans (W3_row m ρ c))
    ((W4_of_ne m ρ c main_v6 (by decide)).trans (W3_col m ρ c))
    ((W4_of_ne m ρ c main_v29 (by decide)).trans (W3_norm m ρ c))

set_option maxRecDepth 16384 in
set_option maxHeartbeats 4000000 in
/-- At the second region's entry the convolution's bias is laid out as a one-row matrix. -/
theorem W5_b16 :
    W5 m ρ c (Proc.devRef .tc main_v44) = shapeCast S1x16 (m ((c : Thread nD τ).loc main_arg3)) Facts₀.shapeCasts_S16_S1x16 := by
  refine (ops1_v44 (W4 m ρ c)).trans ?_
  rw [W4_of_ne m ρ c main_arg3 (by decide), W3_arg3]

set_option maxRecDepth 16384 in
set_option maxHeartbeats 4000000 in
/-- At the second region's entry the classifier's matrix is as launched. -/
theorem W5_w :
    W5 m ρ c (Proc.devRef .tc main_arg4) = m ((c : Thread nD τ).loc main_arg4) := by
  refine Eq.trans ?_ ((W4_of_ne m ρ c main_arg4 (by decide)).trans (W3_arg4 m ρ c))
  dsimp only [W5, hostOps1]
  after_results_simp

set_option maxRecDepth 16384 in
set_option maxHeartbeats 4000000 in
/-- At the second region's entry the classifier's bias is laid out as a one-row matrix. -/
theorem W5_b5 :
    W5 m ρ c (Proc.devRef .tc main_v45) = shapeCast S1x5 (m ((c : Thread nD τ).loc main_arg5)) Facts₀.shapeCasts_S5_S1x5 := by
  refine (ops1_v45 (W4 m ρ c)).trans ?_
  rw [W4_of_ne m ρ c main_arg5 (by decide), W3_arg5]

end Cert.KernelValues

end
-- ==== Proof.RowLaws.lean ====
/-
  The algebra of "is a real number" on the extended reals, and the law that joins the two arrangements of the
  log-softmax of a node's five logits.

  A value of the extended reals is REAL when it is neither infinity. Real values are closed under sum, difference,
  product, maximum and finite sums; the float word of zero is the real number 0; the reciprocal square root of a positive
  extended real is real (it is 0 at +∞). Hence a node's logits are real whenever its aggregated features, the two
  biases and the weights are.

  For real logits the largest logit M is real, so  x − (M + c) = (x − M) − c  for every extended real x and c: that is
  the whole difference between subtracting the shift last and subtracting it first.
-/
import proofs.«170910_j54992761258609_1_alg».proof.Proof.RowSpec
import Idealize.ShloMosaic.PureOps.Ideal.Laws

noncomputable section

namespace Cert.RowSpec

open Idealize.ShloMosaic

/-! ## Real values are closed under the arithmetic -/

/-- A real number, read as an extended real, is real. -/
theorem isReal_coe (r : ℝ) : IsReal (r : EReal) := ⟨r, rfl⟩

/-- The sum of two real values is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The difference of two real values is real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The product of two real values is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The larger of two real values is real. -/
theorem IsReal.max {x y : EReal} (hx : IsReal x) (hy : IsReal y) : IsReal (max x y) := by
  rcases max_choice x y with h | h
  · rw [h]; exact hx
  · rw [h]; exact hy

/-- A finite sum of real values is real. -/
theorem isReal_sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The float word of `0.0` is the real number 0. -/
theorem zero32_eq : zero32 = 0 := Ideal.ofBits_zero_f32

/-- The float word of `0.0` is real. -/
theorem isReal_zero32 : IsReal zero32 := ⟨0, by rw [zero32_eq]; rfl⟩

/-- The reciprocal square root of a positive extended real is real: `(√y)⁻¹` for a positive real `y`, and 0 at `+∞`. -/
theorem isReal_rsqrt_of_pos {y : EReal} (hy : 0 < y) : IsReal (Ideal.rsqrt y) := by
  induction y using EReal.rec with
  | bot => exact absurd hy (by simp)
  | top => exact ⟨0, rfl⟩
  | coe r =>
    have hr : 0 < r := by exact_mod_cast hy
    have h1 : ¬ r < 0 := not_lt.mpr hr.le
    have h2 : ¬ r = 0 := hr.ne'
    show IsReal (if r < 0 then ⊥ else if r = 0 then ⊤ else (((Real.sqrt r)⁻¹ : ℝ) : EReal))
    rw [if_neg h1, if_neg h2]
    exact ⟨_, rfl⟩

/-- A node's logits are real when its aggregated features, both biases and the weights are. -/
theorem logit_isReal {a b : Fin 16 → EReal} {W : Fin 16 → Fin 5 → EReal} {c : Fin 5 → EReal}
    (ha : ∀ k, IsReal (a k)) (hb : ∀ k, IsReal (b k)) (hW : ∀ k j, IsReal (W k j)) (hc : ∀ j, IsReal (c j))
    (j : Fin 5) : IsReal (logit a b W c j) := by
  unfold logit
  exact (isReal_sum _ _ fun k _ => (((ha k).add (hb k)).max isReal_zero32).mul (hW k j)).add (hc j)

/-! ## The largest logit is real, and the two arrangements of the log-softmax agree -/

/-- The float word of `−∞` is the bottom of the extended reals. -/
theorem negInf32_eq : negInf32 = ⊥ := by simp [Ideal.ofBits, Ideal.ieee]

/-- A fold of `max` from `b` over real values is `b` itself or a real value (one of the folded values). -/
theorem fold_max_eq_or_isReal {ι : Type*} (s : Finset ι) (f : ι → EReal) (h : ∀ i ∈ s, IsReal (f i)) (b : EReal) :
    s.fold max b f = b ∨ IsReal (s.fold max b f) := by
  classical
  induction s using Finset.induction_on with
  | empty => exact Or.inl (Finset.fold_empty)
  | insert a s ha ih =>
    rw [Finset.fold_insert ha]
    rcases max_choice (f a) (s.fold max b f) with hm | hm
    · rw [hm]; exact Or.inr (h a (Finset.mem_insert_self a s))
    · rw [hm]; exact ih fun i hi => h i (Finset.mem_insert_of_mem hi)

/-- The largest of five real logits is real: the fold from `−∞` is at least the first logit, so it is not `−∞`. -/
theorem rowMax_isReal (L : Fin 5 → EReal) (hL : ∀ j, IsReal (L j)) : IsReal (rowMax L) := by
  unfold rowMax
  rcases fold_max_eq_or_isReal Finset.univ L (fun i _ => hL i) negInf32 with h | h
  · exfalso
    have hle : L 0 ≤ (Finset.univ : Finset (Fin 5)).fold max negInf32 L :=
      (Finset.le_fold_max (L 0)).mpr (Or.inr ⟨0, Finset.mem_univ _, le_rfl⟩)
    rw [h, negInf32_eq] at hle
    obtain ⟨r, hr⟩ := hL 0
    rw [hr] at hle
    exact EReal.coe_ne_bot r (le_bot_iff.mp hle)
  · exact h

/-- Subtracting a sum whose first term is a real number: `x − (m + c) = (x − m) − c` for all extended reals `x`, `c`
    (the negation distributes over `m + c` because `m` is finite). -/
theorem sub_coe_add (x c : EReal) (m : ℝ) : x - ((m : EReal) + c) = (x - (m : EReal)) - c :=
  calc x - ((m : EReal) + c) = x + -((m : EReal) + c) := sub_eq_add_neg _ _
    _ = x + (-(m : EReal) - c) := by
        rw [EReal.neg_add (Or.inl (EReal.coe_ne_bot m)) (Or.inl (EReal.coe_ne_top m))]
    _ = x + (-(m : EReal) + -c) := by rw [sub_eq_add_neg (-(m : EReal)) c]
    _ = (x + -(m : EReal)) + -c := (add_assoc _ _ _).symm
    _ = (x - (m : EReal)) - c := by rw [← sub_eq_add_neg, ← sub_eq_add_neg]

/-- For real logits the log-softmax with the shift subtracted last is the one with the shift subtracted first. -/
theorem lsm_eq (L : Fin 5 → EReal) (hL : ∀ j, IsReal (L j)) (j : Fin 5) : lsmShiftLast L j = lsmShiftFirst L j := by
  obtain ⟨m, hm⟩ := rowMax_isReal L hL
  unfold lsmShiftLast lsmShiftFirst
  rw [negInf32_eq, zero32_eq, hm, max_eq_right bot_le, zero_add]
  exact sub_coe_add _ _ m

end Cert.RowSpec

end
-- ==== Proof.LibRowGatherScatter.lean ====
/-
  Reading, at an index, the two indexed operations a segment sum is built from: the row gather `x[col]` (an operand
  `[N, C]` or `[N]` read at a column `[E, 1]` of start indices) and the accumulating row scatter
  `segment_sum(msgs, row)` (updates `[E, C]` added into an operand `[N, C]` at a column `[E, 1]` of row indices).
  The gather clamps its start index into `[0, N − 1]`; the scatter reads it signed and drops a row that is out of range.
  Every statement is for arbitrary dimension numbers whose lists are the ones those two operations carry.
-/
import Idealize.ShloMosaic.Lib.ValueIdx
import Idealize.ShloMosaic.PureOps.Ideal.Laws

noncomputable section

open scoped BigOperators

namespace Idealize.ShloMosaic.RowGatherScatter

open Idealize.ShloMosaic Idealize.ShloMosaic.ValueIdx

/-! ## The row gather at an index -/

section Gather
variable {α : Type}

/-- THE ROW GATHER READ AT `(e, c)`: gathering whole rows of an `[N, C]` operand at a column `[E, 1]` of start
    indices gives, at row `e` and column `c`, the operand's element in column `c` of the row named by start index
    `e`, that index read as a signed integer and clamped into `[0, N − 1]`. -/
theorem gather_rows_apply {N E C w : Nat} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (c : Fin C) :
    Host.gather d x idx (ix2 e c) = x (ix2 ⟨min (idx (ix2 e 0)).toInt.toNat (N - 1), by omega⟩ c) := by
  obtain ⟨od, cd, ob, sb, sm, iv, ss, wf⟩ := d
  simp only at h1 h2 h3 h4 h5 h6 h7
  subst h1 h2 h3 h4 h5 h6 h7
  unfold Host.gather
  congr 1
  funext a
  refine Fin.ext ?_
  match a with
  | ⟨0, _⟩ =>
    -- the row axis: collapsed, not batching, named by the start index map
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (p : Nat) (hp : p < 1), GatherDims.siIdx (⟨[1], [0], [], [], [0], 1, ![1, C], wf⟩ :
        GatherDims ⟨2, ![N, C]⟩ ⟨2, ![E, 1]⟩ ⟨2, ![E, C]⟩) (ix2 e c) ⟨p, hp⟩ = ix2 e 0 := by
      intro p hp
      obtain rfl : p = 0 := by omega
      funext b; refine Fin.ext ?_
      match b with
      | ⟨0, _⟩ => rfl
      | ⟨1, _⟩ => rfl
    rw [hsi]
    rfl
  | ⟨1, _⟩ =>
    -- the column axis: an offset axis, its start 0, its offset the result's column
    show GatherDims.start _ (ix2 e c) idx 1 + GatherDims.batchCoord _ (ix2 e c) 1 + GatherDims.offCoord _ (ix2 e c) 1 = c.val
    rw [GatherDims.batchCoord_eq_zero _ _ _ List.not_mem_nil]
    have hs : GatherDims.start (⟨[1], [0], [], [], [0], 1, ![1, C], wf⟩ :
        GatherDims ⟨2, ![N, C]⟩ ⟨2, ![E, 1]⟩ ⟨2, ![E, C]⟩) (ix2 e c) idx 1 = 0 := by
      unfold GatherDims.start; rw [dif_neg (show (1 : Fin 2) ∉ [(0 : Fin 2)] by decide)]
    rw [hs]
    simp only [Nat.add_zero, Nat.zero_add]
    rfl

/-- THE VECTOR GATHER READ AT `e`: gathering elements of an `[N]` operand at a column `[E, 1]` of start indices gives,
    at `e`, the operand's element at start index `e`, read as a signed integer and clamped into `[0, N − 1]`. -/
theorem gather_vec_apply {N E w : Nat} (hN : 0 < N)
    (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  obtain ⟨od, cd, ob, sb, sm, iv, ss, wf⟩ := d
  simp only at h1 h2 h3 h4 h5 h6 h7
  subst h1 h2 h3 h4 h5 h6 h7
  unfold Host.gather
  congr 1
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (p : Nat) (hp : p < 1), GatherDims.siIdx (⟨[], [0], [], [], [0], 1, ![1], wf⟩ :
        GatherDims ⟨1, ![N]⟩ ⟨2, ![E, 1]⟩ ⟨1, ![E]⟩) (ix1 e) ⟨p, hp⟩ = ix2 e 0 := by
      intro p hp
      obtain rfl : p = 0 := by omega
      funext b; refine Fin.ext ?_
      match b with
      | ⟨0, _⟩ => rfl
      | ⟨1, _⟩ => rfl
    rw [hsi]
    rfl

end Gather

/-! ## The accumulating row scatter at an index -/

section Scatter

/-- The row scatter's dimension numbers — updates `[E, C]` whose column axis is the window, the operand's row axis
    inserted and named by the one scatter index component — with their conditions an arbitrary proof. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window starts at the update's scatter index, read signed. -/
theorem rows_start0 (idx : IVec ⟨2, ![E, 1]⟩ w) (e : Fin E) (c : Fin C) :
    (rowsDims N E C wf).start (ix2 e c) idx 0 = (idx (ix2 e 0)).toInt := by
  unfold ScatterDims.start
  rw [dif_pos (List.mem_singleton.mpr rfl)]
  have hsi : ∀ (p : Nat) (hp : p < 1), (rowsDims N E C wf).siIdx (ix2 e c) ⟨p, hp⟩ = ix2 e 0 := by
    intro p hp
    obtain rfl : p = 0 := by omega
    funext b; refine Fin.ext ?_
    match b with
    | ⟨0, _⟩ => rfl
    | ⟨1, _⟩ => rfl
  rw [hsi]

/-- On the column axis the window starts at 0. -/
theorem rows_start1 (idx : IVec ⟨2, ![E, 1]⟩ w) (e : Fin E) (c : Fin C) :
    (rowsDims N E C wf).start (ix2 e c) idx 1 = 0 := by
  unfold ScatterDims.start; rw [dif_neg (show (1 : Fin 2) ∉ [(0 : Fin 2)] by decide)]

/-- The row axis is inserted: no window coordinate. -/
theorem rows_window0 (e : Fin E) (c : Fin C) : (rowsDims N E C wf).window (ix2 e c) 0 = 0 := by
  unfold ScatterDims.window
  have h0 : (0 : Fin 2) ∉ (List.finRange 2).filter (· ∉ [(0 : Fin 2)]) := by decide
  exact dif_neg h0

/-- The column axis's window coordinate is the update's column. -/
theorem rows_window1 (e : Fin E) (c : Fin C) : (rowsDims N E C wf).window (ix2 e c) 1 = c.val := rfl

/-- WHERE AN UPDATE LANDS, for those dimension numbers: update `(e, c)` lands on operand element `(n, c')` exactly when
    the columns agree and the update's scatter index, read signed, is `n`. -/
theorem rows_resultIdx (idx : IVec ⟨2, ![E, 1]⟩ w) (e : Fin E) (c c' : Fin C) (n : Fin N) :
    (rowsDims N E C wf).resultIdx? (ix2 e c) idx = some (ix2 n c') ↔
      (c = c' ∧ (idx (ix2 e 0)).toInt = (n.val : ℤ)) := by
  unfold ScatterDims.resultIdx?
  constructor
  · intro h
    split at h
    · rename_i hall
      have hf := Option.some.inj h
      have h0 : ((rowsDims N E C wf).start (ix2 e c) idx 0 + ((rowsDims N E C wf).window (ix2 e c) 0 : ℕ)).toNat = n.val :=
        congrArg Fin.val (congrFun hf 0)
      have h1 : ((rowsDims N E C wf).start (ix2 e c) idx 1 + ((rowsDims N E C wf).window (ix2 e c) 1 : ℕ)).toNat = c'.val :=
        congrArg Fin.val (congrFun hf 1)
      have hr0 := (hall 0).1
      rw [rows_start0, rows_window0] at h0 hr0
      rw [rows_start1, rows_window1] at h1
      exact ⟨Fin.ext (by omega), by omega⟩
    · cases h
  · rintro ⟨rfl, hq⟩
    have hall : ∀ a, 0 ≤ (rowsDims N E C wf).start (ix2 e c) idx a + ((rowsDims N E C wf).window (ix2 e c) a : ℕ) ∧
        (rowsDims N E C wf).start (ix2 e c) idx a + ((rowsDims N E C wf).window (ix2 e c) a : ℕ) <
          ((⟨2, ![N, C]⟩ : Shape).size a : ℕ) := by
      intro a
      match a with
      | ⟨0, _⟩ =>
        show 0 ≤ (rowsDims N E C wf).start (ix2 e c) idx 0 + ((rowsDims N E C wf).window (ix2 e c) 0 : ℕ) ∧
          (rowsDims N E C wf).start (ix2 e c) idx 0 + ((rowsDims N E C wf).window (ix2 e c) 0 : ℕ) < (N : ℤ)
        rw [rows_start0, rows_window0, hq]
        have := n.isLt
        constructor <;> omega
      | ⟨1, _⟩ =>
        show 0 ≤ (rowsDims N E C wf).start (ix2 e c) idx 1 + ((rowsDims N E C wf).window (ix2 e c) 1 : ℕ) ∧
          (rowsDims N E C wf).start (ix2 e c) idx 1 + ((rowsDims N E C wf).window (ix2 e c) 1 : ℕ) < (C : ℤ)
        rw [rows_start1, rows_window1]
        have := c.isLt
        constructor <;> omega
    rw [dif_pos hall]
    congr 1
    funext a
    refine Fin.ext ?_
    match a with
    | ⟨0, _⟩ =>
      show ((rowsDims N E C wf).start (ix2 e c) idx 0 + ((rowsDims N E C wf).window (ix2 e c) 0 : ℕ)).toNat = n.val
      rw [rows_start0, rows_window0, hq]
      omega
    | ⟨1, _⟩ =>
      show ((rowsDims N E C wf).start (ix2 e c) idx 1 + ((rowsDims N E C wf).window (ix2 e c) 1 : ℕ)).toNat = c.val
      rw [rows_start1, rows_window1]
      omega

omit wf in
/-- WHERE AN UPDATE LANDS in the accumulating row scatter: update `(e, c)` lands on operand element `(n, c')` exactly
    when the columns agree and the update's scatter index, read as a signed integer and NOT clamped, is `n`; an update
    whose index is negative or at least `N` lands nowhere. -/
theorem scatter_rows_resultIdx (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (idx : IVec ⟨2, ![E, 1]⟩ w) (e : Fin E) (c c' : Fin C) (n : Fin N) :
    d.resultIdx? (ix2 e c) idx = some (ix2 n c') ↔ (c = c' ∧ (idx (ix2 e 0)).toInt = (n.val : ℤ)) := by
  obtain ⟨uw, iw, sd, iv, wf'⟩ := d
  simp only at h1 h2 h3 h4
  subst h1 h2 h3 h4
  exact rows_resultIdx wf' idx e c c' n

omit wf in
/-- THE ACCUMULATING ROW SCATTER READ AT `(n, c)`, over the extended reals: the operand's element plus the sum of
    column `c` of the update rows whose scatter index, read signed, is `n` — the segment sum of the updates over the
    rows sent to `n`. Rows with an out-of-range index contribute to no element. -/
theorem scatterAdd_rows_apply {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ φ) (idx : IVec ⟨2, ![E, 1]⟩ w) (upd : FVec Ideal ⟨2, ![E, C]⟩ φ)
    (n : Fin N) (c : Fin C) :
    Host.scatterAdd (F := Ideal) d x idx upd (ix2 n c) =
      x (ix2 n c) + ∑ e ∈ Finset.univ.filter (fun e : Fin E => (idx (ix2 e 0)).toInt = (n.val : ℤ)), upd (ix2 e c) := by
  show Ideal.hostScatterAdd d x idx upd (ix2 n c) = _
  unfold Ideal.hostScatterAdd
  congr 1
  rw [Finset.sum_filter, sum_idx2, Finset.sum_filter]
  refine Finset.sum_congr rfl fun a _ => ?_
  have key : ∀ b : Fin C, (if d.resultIdx? (ix2 a b) idx = some (ix2 n c) then upd (ix2 a b) else 0) =
      if b = c then (if (idx (ix2 a 0)).toInt = (n.val : ℤ) then upd (ix2 a c) else 0) else 0 := by
    intro b
    by_cases hb : b = c
    · subst hb
      by_cases hq : (idx (ix2 a 0)).toInt = (n.val : ℤ)
      · rw [if_pos ((scatter_rows_resultIdx d h1 h2 h3 h4 idx a b b n).mpr ⟨rfl, hq⟩), if_pos rfl, if_pos hq]
      · rw [if_neg (fun h => hq ((scatter_rows_resultIdx d h1 h2 h3 h4 idx a b b n).mp h).2), if_pos rfl, if_neg hq]
    · rw [if_neg (fun h => hb ((scatter_rows_resultIdx d h1 h2 h3 h4 idx a b c n).mp h).1), if_neg hb]
  rw [Finset.sum_congr rfl (fun b _ => key b), Finset.sum_ite_eq' Finset.univ c, if_pos (Finset.mem_univ c)]

end Scatter

end Idealize.ShloMosaic.RowGatherScatter

end
-- ==== Proof.AggReal.lean ====
/-
  The aggregated features of the graph convolution are real numbers when the node features and the convolution's weights are.

  The aggregation is  agg(n, c) = 0 + ∑ over the edges e sent to node n of  xw(r(e), c) · norm(e),  with
  xw = x · W the transformed features, r(e) the start node of edge e, and  norm(e) = dinv(a(e)) · dinv(b(e))  the
  symmetric normalisation, dinv(a) = 1 / √deg(a) where deg(a) > 0 and 0 elsewhere.

  Which edges are summed, and which nodes r(e), a(e), b(e) are, depends on the edge list; none of it matters here: a
  finite sum of real numbers is real, so it is enough that EVERY message xw(r, c) · norm(e) is real, for whatever
  indices the gathers read.  xw(r, c) is a sum of sixteen products of real numbers.  dinv(a) is real whatever the
  degree is: where the comparison deg(a) > 0 holds the reciprocal square root of a positive extended real is real
  (it is 0 at +∞), and where it fails the value is the float word of zero.
-/
import proofs.«170910_j54992761258609_1_alg».proof.Proof.RefRead
import proofs.«170910_j54992761258609_1_alg».proof.Proof.RowSpec
import proofs.«170910_j54992761258609_1_alg».proof.Proof.RowLaws
import proofs.«170910_j54992761258609_1_alg».proof.Proof.LibRowGatherScatter
import Idealize.ShloMosaic.Lib.ValueIdx
import Idealize.ShloMosaic.PureOps.Ideal.Laws

noncomputable section

namespace Cert.AggReal

open Idealize.ShloMosaic Idealize.ShloMosaic.ValueIdx Cert.ReferenceIdeal Cert.ReferenceIdeal.ReadP Cert.RowSpec
open Idealize.ShloMosaic.RowGatherScatter

/-- The selection between the reciprocal square root of `d` and zero, on the comparison `d > 0`, is real for every
    extended real `d`: a positive `d` (`+∞` included) has a real reciprocal square root, and otherwise the value is 0. -/
theorem select_rsqrt_isReal (d : EReal) :
    IsReal (Scalar.select (Ideal.cmp .ogt d zero32) (Ideal.rsqrt d) zero32) := by
  by_cases h : zero32 < d
  · have hc : Ideal.cmp .ogt d zero32 = 1#1 := by
      show BitVec.ofBool (decide (zero32 < d)) = 1#1
      rw [decide_eq_true h]; rfl
    rw [hc, select_one]
    exact isReal_rsqrt_of_pos (by rw [← zero32_eq]; exact h)
  · have hc : Ideal.cmp .ogt d zero32 = 0#1 := by
      show BitVec.ofBool (decide (zero32 < d)) = 0#1
      rw [decide_eq_false h]; rfl
    rw [hc, select_zero]
    exact isReal_zero32

/-- The inverse square root of the degree, cut to 0 where the degree is not positive, is real at every node. -/
theorem dinv_isReal (x1 : IVec S2x8000000 32) (a : S500000.Idx) : IsReal (val_main_v14 (F := Ideal) x1 a) := by
  rw [val_main_v14_apply, val_main_v12_apply, val_main_v13_apply, val_main_v11_apply, val_main_cst_1_apply,
    val_main_call0_v1_apply, val_main_call0_v0_apply, val_main_cst_2_apply]
  generalize val_main_v10 (F := Ideal) x1 a = d
  exact select_rsqrt_isReal d

/-- The normalisation of an edge, the product of the inverse square root degrees of two nodes, is real. -/
theorem norm_isReal (x1 : IVec S2x8000000 32) (e : S8500000.Idx) : IsReal (val_main_v29 (F := Ideal) x1 e) := by
  obtain ⟨p, rfl⟩ : ∃ p, e = ix1 p := ⟨e 0, eq_ix1 e⟩
  rw [val_main_v29_apply]
  show IsReal (val_main_v21 (F := Ideal) x1 (ix1 p) * val_main_v28 (F := Ideal) x1 (ix1 p))
  refine IsReal.mul ?_ ?_
  · unfold val_main_v21
    rw [gather_vec_apply (by omega) _ rfl rfl rfl rfl rfl rfl rfl]
    exact dinv_isReal x1 _
  · unfold val_main_v28
    rw [gather_vec_apply (by omega) _ rfl rfl rfl rfl rfl rfl rfl]
    exact dinv_isReal x1 _

/-- The transformed features `x · W` are real when `x` and `W` are: each is a sum of sixteen products of real numbers. -/
theorem xw_isReal (x0 : FVec Ideal S500000x16 .f32) (x2 : FVec Ideal S16x16 .f32)
    (hx0 : ∀ i, IsReal (x0 i)) (hx2 : ∀ i, IsReal (x2 i)) (i : S500000x16.Idx) :
    IsReal (val_main_v30 (F := Ideal) x0 x2 i) := by
  rw [val_main_v30_apply]
  exact isReal_sum _ _ fun k _ => (hx0 _).mul (hx2 _)

/-- Every message, a transformed feature of the edge's start node times the edge's normalisation, is real. -/
theorem msg_isReal (x0 : FVec Ideal S500000x16 .f32) (x1 : IVec S2x8000000 32) (x2 : FVec Ideal S16x16 .f32)
    (hx0 : ∀ i, IsReal (x0 i)) (hx2 : ∀ i, IsReal (x2 i)) (e : Fin 8500000) (c : Fin 16) :
    IsReal (val_main_v40 (F := Ideal) x0 x1 x2 (ix2 e c)) := by
  rw [val_main_v40_apply]
  show IsReal (val_main_v37 (F := Ideal) x0 x1 x2 (ix2 e c) * val_main_v39 (F := Ideal) x1 (ix2 e c))
  refine IsReal.mul ?_ ?_
  · unfold val_main_v37
    rw [gather_rows_apply (by omega) _ rfl rfl rfl rfl rfl rfl rfl]
    exact xw_isReal x0 x2 hx0 hx2 _
  · rw [val_main_v39_apply, val_main_v38_apply]
    exact norm_isReal x1 _

/-- THE AGGREGATED FEATURES ARE REAL: zero plus a finite sum of real messages. -/
theorem agg_isReal (x0 : FVec Ideal S500000x16 .f32) (x1 : IVec S2x8000000 32) (x2 : FVec Ideal S16x16 .f32)
    (hx0 : ∀ i, IsReal (x0 i)) (hx2 : ∀ i, IsReal (x2 i)) (n : Fin 500000) (c : Fin 16) :
    IsReal (val_main_v43 (F := Ideal) x0 x1 x2 (ix2 n c)) := by
  unfold val_main_v43
  rw [scatterAdd_rows_apply _ rfl rfl rfl rfl]
  refine IsReal.add ?_ (isReal_sum _ _ fun e _ => msg_isReal x0 x1 x2 hx0 hx2 e c)
  rw [val_main_v41_apply, val_main_cst_8_apply]
  exact isReal_zero32

end Cert.AggReal

end
-- ==== Proof.RefRows.lean ====
/-
  The reference's result read at an index.

  The reference computes, for every node i, sixteen aggregated features agg[i, ·], then the five logits
      L j = ∑ₖ max (agg[i,k] + b[k]) 0 · W[k,j] + c[j]
  and the logarithm of the softmax of the five logits with the shift subtracted first:
      (L j − M) − log (0 + ∑_d exp (L d − M)),   M = max (−∞) (the largest logit folded from −∞).
  This file reads the reference's stages at an index (i, j) and states exactly that, with the aggregated features kept
  as an opaque array.
-/
import proofs.«170910_j54992761258609_1_alg».proof.Proof.RefRead
import proofs.«170910_j54992761258609_1_alg».proof.Proof.RowSpec
import Idealize.ShloMosaic.PureOps.Reduce
import Idealize.ShloMosaic.Lib.ValueIdx

noncomputable section

namespace Cert.RefRows

open Idealize.ShloMosaic Idealize.ShloMosaic.ValueIdx Cert.ReferenceIdeal Cert.ReferenceIdeal.Gen Cert.ReferenceIdeal.ReadP Cert.RowSpec

variable (x0 : FVec Ideal S500000x16 .f32) (x1 : IVec S2x8000000 32) (x2 : FVec Ideal S16x16 .f32)
  (x3 : FVec Ideal S16 .f32) (x4 : FVec Ideal S16x5 .f32) (x5 : FVec Ideal S5 .f32)

/-- The features after the bias and the cut at zero, at (i, k): max (agg[i,k] + b[k]) 0. -/
theorem relu_apply (i : Fin 500000) (k : Fin 16) :
    val_main_v47 (F := Ideal) x0 x1 x2 x3 (ix2 i k)
      = max (val_main_v43 (F := Ideal) x0 x1 x2 (ix2 i k) + x3 (ix1 k)) zero32 := by
  rw [val_main_v47_apply, val_main_v46_apply, val_main_v45_apply, val_main_v44_apply, val_main_call1_v0_apply,
    val_main_call1_cst_apply]
  have e : idx_main_v44 (idx_main_v45 (ix2 i k)) = ix1 k := by
    funext a; match a with | ⟨0, _⟩ => rfl
  rw [e]
  rfl

/-- The logits at (i, j). -/
theorem logits_apply (i : Fin 500000) (j : Fin 5) :
    val_main_v51 (F := Ideal) x0 x1 x2 x3 x4 x5 (ix2 i j)
      = logit (fun k => val_main_v43 (F := Ideal) x0 x1 x2 (ix2 i k)) (fun k => x3 (ix1 k)) (fun k j' => x4 (ix2 k j'))
          (fun j' => x5 (ix1 j')) j := by
  rw [val_main_v51_apply, val_main_v48_apply, val_main_v50_apply, val_main_v49_apply]
  have e : idx_main_v49 (idx_main_v50 (ix2 i j)) = ix1 j := by
    funext a; match a with | ⟨0, _⟩ => rfl
  rw [e]
  unfold logit
  refine congrArg (· + x5 (ix1 j)) (Finset.sum_congr rfl fun k _ => ?_)
  have el : lidx_main_v48 (ix2 i j) k = ix2 i k := by
    funext a; match a with | ⟨0, _⟩ => rfl | ⟨1, _⟩ => rfl
  have er : ridx_main_v48 (ix2 i j) k = ix2 k j := by
    funext a; match a with | ⟨0, _⟩ => rfl | ⟨1, _⟩ => rfl
  rw [el, er, relu_apply]

/-- The reduced index i with coordinate d put back on the second axis is (i, d). -/
theorem lift_row (h : S500000x5.Reduces [1] S500000) (i : Fin 500000) (d : Fin (S500000x5.size 1)) :
    h.lift (ix1 i) d = ix2 i (⟨d.val, d.isLt⟩ : Fin 5) := by
  funext c; apply Fin.ext
  match c with
  | ⟨0, _⟩ => rfl
  | ⟨1, _⟩ => rfl

/-- From −∞ the reduction with a maximum body along the second axis of a [500000, 5] array, at row i, is the largest of
    the five entries of that row folded from −∞. -/
theorem hostReduce_max_row (L : FVec Ideal S500000x5 .f32) (h : S500000x5.Reduces [1] S500000) (i : Fin 500000) :
    Host.reduce FloatOps.maximumf L (val_main_call2_cst (F := Ideal)) reducesTo_S500000x5_S500000_d1 h_S_ (ix1 i)
      = rowMax (fun d => L (ix2 i d)) := by
  refine (Host.reduce_eq_fold_single (FloatOps.maximumf (F := Ideal) (φ := .f32)) L (val_main_call2_cst (F := Ideal))
    reducesTo_S500000x5_S500000_d1 h h_S_ (ix1 i)).trans ?_
  unfold rowMax
  have hf : (L ∘ h.lift (ix1 i)) = fun d : Fin 5 => L (ix2 i d) := funext fun d => congrArg L (lift_row h i d)
  exact congrArg (fun f => Finset.fold max negInf32 f (Finset.univ : Finset (Fin 5))) hf

/-- The largest logit of node i, folded from −∞. -/
theorem rowmax_apply (i : Fin 500000) :
    val_main_call2_v0 (F := Ideal) x0 x1 x2 x3 x4 x5 (ix1 i)
      = rowMax (fun d => val_main_v51 (F := Ideal) x0 x1 x2 x3 x4 x5 (ix2 i d)) := by
  unfold val_main_call2_v0
  exact hostReduce_max_row (val_main_v51 (F := Ideal) x0 x1 x2 x3 x4 x5) (by decide) i

/-- The shift M = max (−∞) (largest logit), broadcast back over the five columns, at (i, j). -/
theorem shift_apply (i : Fin 500000) (j : Fin 5) :
    val_main_call2_v4 (F := Ideal) x0 x1 x2 x3 x4 x5 (ix2 i j)
      = max negInf32 (rowMax (fun d => val_main_v51 (F := Ideal) x0 x1 x2 x3 x4 x5 (ix2 i d))) := by
  rw [val_main_call2_v4_apply, val_main_call2_v3_apply, val_main_call2_v2_apply, val_main_call2_v1_apply,
    val_main_call2_cst_0_apply]
  have e : idx_main_call2_v3 (idx_main_call2_v4 (ix2 i j)) = ix1 i := by
    funext a; match a with | ⟨0, _⟩ => rfl
  rw [e, rowmax_apply]
  rfl

/-- The shifted logits at (i, j): L j − M. -/
theorem shifted_apply (i : Fin 500000) (j : Fin 5) :
    val_main_call2_v5 (F := Ideal) x0 x1 x2 x3 x4 x5 (ix2 i j)
      = val_main_v51 (F := Ideal) x0 x1 x2 x3 x4 x5 (ix2 i j)
        - max negInf32 (rowMax (fun d => val_main_v51 (F := Ideal) x0 x1 x2 x3 x4 x5 (ix2 i d))) := by
  rw [val_main_call2_v5_apply, shift_apply]
  rfl

/-- The logarithm of the sum of the exponentials, broadcast back over the five columns, at (i, j). -/
theorem logsum_apply (i : Fin 500000) (j : Fin 5) :
    val_main_call2_v10 (F := Ideal) x0 x1 x2 x3 x4 x5 (ix2 i j)
      = Ideal.log (zero32 + ∑ d : Fin 5, Ideal.exp (val_main_v51 (F := Ideal) x0 x1 x2 x3 x4 x5 (ix2 i d)
        - max negInf32 (rowMax (fun d => val_main_v51 (F := Ideal) x0 x1 x2 x3 x4 x5 (ix2 i d))))) := by
  rw [val_main_call2_v10_apply, val_main_call2_v9_apply, val_main_call2_v8_apply, val_main_call2_v7_apply,
    val_main_call2_cst_1_apply]
  have e : idx_main_call2_v8 (idx_main_call2_v10 (ix2 i j)) = ix1 i := by
    funext a; match a with | ⟨0, _⟩ => rfl
  rw [e, Ideal.hostUnary_log_def, Ideal.ofBits_def]
  refine congrArg (fun s => Ideal.log (zero32 + s)) (Finset.sum_congr rfl fun d _ => ?_)
  have ed : idx_main_call2_v7 (ix1 i) d = ix2 i d := by
    funext a; match a with | ⟨0, _⟩ => rfl | ⟨1, _⟩ => rfl
  rw [ed, val_main_call2_v6_apply, shifted_apply, Ideal.hostUnary_exp_def]

/-- The reference's result at (i, j): the log-softmax, shift subtracted first, of the five logits of node i. -/
theorem ref_apply (i : Fin 500000) (j : Fin 5) :
    val_main_v52 (F := Ideal) x0 x1 x2 x3 x4 x5 (ix2 i j)
      = lsmShiftFirst (logit (fun k => val_main_v43 (F := Ideal) x0 x1 x2 (ix2 i k)) (fun k => x3 (ix1 k))
          (fun k j' => x4 (ix2 k j')) (fun j' => x5 (ix1 j'))) j := by
  have hl : logit (fun k => val_main_v43 (F := Ideal) x0 x1 x2 (ix2 i k)) (fun k => x3 (ix1 k))
      (fun k j' => x4 (ix2 k j')) (fun j' => x5 (ix1 j'))
        = fun d => val_main_v51 (F := Ideal) x0 x1 x2 x3 x4 x5 (ix2 i d) :=
    funext fun d => (logits_apply x0 x1 x2 x3 x4 x5 i d).symm
  rw [hl, val_main_v52_apply, shifted_apply, logsum_apply]
  rfl

end Cert.RefRows

end
-- ==== Proof.Bridge.lean ====
/-
  The bridge between the two dense stages written as functions of whole arrays and the reference's own stages.

  The projection: the reference's matrix product at (p, q) is the sum over l of x (p, l) · W (l, q), which is the array
  function's entry.

  The classifier: the reference takes the log-softmax of a node's five logits with the shift subtracted first, the array
  function with the shift subtracted last. Under the precondition every input is real, hence so are the aggregated
  features and the logits, and for real logits the two arrangements agree. The bias vectors enter the array function
  as rows; a vector cast to a row reads the vector's entry.
-/
import proofs.«170910_j54992761258609_1_alg».proof.Proof.ArraySpec
import proofs.«170910_j54992761258609_1_alg».proof.Proof.RefRead
import proofs.«170910_j54992761258609_1_alg».proof.Proof.RowSpec
import proofs.«170910_j54992761258609_1_alg».proof.Proof.RowLaws
import proofs.«170910_j54992761258609_1_alg».proof.Proof.AggReal
import proofs.«170910_j54992761258609_1_alg».proof.Proof.RefRows
import Idealize.ShloMosaic.Lib.ValueLayout
import Idealize.ShloMosaic.Lib.ValueIdx
import Idealize.ShloMosaic.Lib.Pipeline.Value

noncomputable section

namespace Cert.Bridge

open Idealize.ShloMosaic Idealize.ShloMosaic.ValueIdx Cert.ReferenceIdeal Cert.ReferenceIdeal.ReadP Cert.RowSpec Cert.ArraySpec

/-! ## The projection -/

/-- The projection as an array function is the reference's matrix product. -/
theorem proj_eq (x0 : FVec Ideal S500000x16 .f32) (x2 : FVec Ideal S16x16 .f32) :
    projArr x0 x2 = val_main_v30 (F := Ideal) x0 x2 := by
  funext i
  rw [val_main_v30_apply]
  show ∑ l : Fin 16, x0 (ix2 (i 0) l) * x2 (ix2 l (i 1)) = _
  refine Finset.sum_congr rfl fun k _ => ?_
  -- the operands' indices at output index i and contraction position k are (i₀, k) and (k, i₁)
  have el : lidx_main_v30 i k = ix2 (i 0) k := by
    funext a
    match a with
    | ⟨0, _⟩ => rfl
    | ⟨1, _⟩ => rfl
  have er : ridx_main_v30 i k = ix2 k (i 1) := by
    funext a
    match a with
    | ⟨0, _⟩ => rfl
    | ⟨1, _⟩ => rfl
  exact congrArg₂ (fun a b => x0 a * x2 b) el.symm er.symm

/-! ## The classifier -/

/-- The classifier as an array function of the reference's aggregated features, with the bias vectors cast to rows, is
    the reference's last stage, when every float input is real. -/
theorem out_eq (x0 : FVec Ideal S500000x16 .f32) (x1 : IVec S2x8000000 32) (x2 : FVec Ideal S16x16 .f32)
    (x3 : FVec Ideal S16 .f32) (x4 : FVec Ideal S16x5 .f32) (x5 : FVec Ideal S5 .f32)
    (h16 : (⟨1, ![16]⟩ : Shape).ShapeCasts ⟨2, ![1, 16]⟩) (h5 : (⟨1, ![5]⟩ : Shape).ShapeCasts ⟨2, ![1, 5]⟩)
    (hx0 : ∀ i, IsReal (x0 i)) (hx2 : ∀ i, IsReal (x2 i)) (hx3 : ∀ i, IsReal (x3 i)) (hx4 : ∀ i, IsReal (x4 i))
    (hx5 : ∀ i, IsReal (x5 i)) :
    outArr (val_main_v43 (F := Ideal) x0 x1 x2) (shapeCast ⟨2, ![1, 16]⟩ x3 h16) x4 (shapeCast ⟨2, ![1, 5]⟩ x5 h5)
      = val_main_v52 (F := Ideal) x0 x1 x2 x3 x4 x5 := by
  funext i
  obtain ⟨p, j, rfl⟩ : ∃ (p : Fin 500000) (j : Fin 5), i = ix2 p j := ⟨i 0, i 1, eq_ix2 i⟩
  refine (outArr_ix2 _ _ _ _ p j).trans ?_
  refine Eq.trans ?_ (Cert.RefRows.ref_apply x0 x1 x2 x3 x4 x5 p j).symm
  -- a bias vector cast to a row reads the vector's entry
  have hb16 : (fun k : Fin 16 => shapeCast ⟨2, ![1, 16]⟩ x3 h16 (ix2 (0 : Fin 1) k)) = fun k => x3 (ix1 k) :=
    funext fun k => shapeCast_a_1a_apply x3 h16 (0 : Fin 1) k
  have hb5 : (fun j' : Fin 5 => shapeCast ⟨2, ![1, 5]⟩ x5 h5 (ix2 (0 : Fin 1) j')) = fun j' => x5 (ix1 j') :=
    funext fun j' => shapeCast_a_1a_apply x5 h5 (0 : Fin 1) j'
  rw [hb16, hb5]
  -- the logits are real, so the two arrangements of the log-softmax agree
  exact lsm_eq _ (fun j' => logit_isReal (fun k => Cert.AggReal.agg_isReal x0 x1 x2 hx0 hx2 p k) (fun k => hx3 _)
    (fun k j'' => hx4 _) (fun j'' => hx5 _) j') j

end Cert.Bridge

end
-- ==== Proof.KernelOut.lean ====
/-
  What the idealized kernel program's result holds, as a function of the argument arrays.

  Region 0 leaves  x · W_conv  in its output array (its blocks are the row blocks of that one product). The host operations
  between the regions are the reference's own: index vectors, normalisation, gather, scale, scatter-add; fed the same
  projection they leave the same aggregated features. Region 1 leaves, in the result, the classifier's row function of the
  aggregated features and the bias rows; with finite inputs that is the reference's last stage, the two arrangements of the
  log-softmax agreeing on real logits.
-/
import proofs.«170910_j54992761258609_1_alg».proof.Proof.KernelRun
import proofs.«170910_j54992761258609_1_alg».proof.Proof.KernelArrays
import proofs.«170910_j54992761258609_1_alg».proof.Proof.KernelValues
import proofs.«170910_j54992761258609_1_alg».proof.Proof.Bridge

set_option maxRecDepth 16384

noncomputable section

namespace Cert.KernelOut

open Cert.KernelIdeal Cert.KernelIdeal.Gen Cert.RowSpec
open Idealize.ShloMosaic Idealize.ShloMosaic.TcCoe Idealize.SL.Sem

variable (m : (ℓ : Loc nD τ sig) → Buf (Elt Ideal) ℓ) (ρ : Dev nD → PrngReg) (c : Dev nD)

/-- Region 0's output array after the region is the projection of the launch contents of x and W_conv. -/
theorem xw_value :
    W4 m ρ c (Proc.devRef .tc main_v30)
      = Cert.ReferenceIdeal.ReadP.val_main_v30 (F := Ideal) (m ((c : Thread nD τ).loc main_arg0)) (m ((c : Thread nD τ).loc main_arg2)) := by
  refine (W4_arr m ρ c 2).trans ?_
  refine (Cert.KernelArrays.xw_final (V3 m ρ) c).trans ?_
  have e0 : V3 m ρ c main_arg0 = m ((c : Thread nD τ).loc main_arg0) := Cert.KernelValues.W3_arg0 m ρ c
  have e2 : V3 m ρ c main_arg2 = m ((c : Thread nD τ).loc main_arg2) := Cert.KernelValues.W3_arg2 m ρ c
  rw [e0, e2]
  exact Cert.Bridge.proj_eq _ _

/-- The result buffer at the last boundary is the reference's last stage of the launch contents, for finite inputs. -/
theorem out_value
    (h0 : ∀ i, IsReal (m ((c : Thread nD τ).loc main_arg0) i)) (h2 : ∀ i, IsReal (m ((c : Thread nD τ).loc main_arg2) i))
    (h3 : ∀ i, IsReal (m ((c : Thread nD τ).loc main_arg3) i)) (h4 : ∀ i, IsReal (m ((c : Thread nD τ).loc main_arg4) i))
    (h5 : ∀ i, IsReal (m ((c : Thread nD τ).loc main_arg5) i)) :
    W6 m ρ c (Proc.devRef .tc main_v46)
      = Cert.ReferenceIdeal.ReadP.val_main_v52 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  refine (W6_arr m ρ c 4).trans ?_
  refine (Cert.KernelArrays.out_final (V5 m ρ) c).trans ?_
  have e43 : V5 m ρ c main_v43 = _ := Cert.KernelValues.W5_agg m ρ c (xw_value m ρ c)
  have e44 : V5 m ρ c main_v44 = _ := Cert.KernelValues.W5_b16 m ρ c
  have e4 : V5 m ρ c main_arg4 = _ := Cert.KernelValues.W5_w m ρ c
  have e45 : V5 m ρ c main_v45 = _ := Cert.KernelValues.W5_b5 m ρ c
  rw [e43, e44, e4, e45]
  exact Cert.Bridge.out_eq _ _ _ _ _ _ _ _ h0 h2 h3 h4 h5

/-- The kernel program's run, its result at the reference's last stage of the arguments. -/
theorem run_value
    (hfin : ∀ c : Dev nD, (∀ i, IsReal (m ((c : Thread nD τ).loc main_arg0) i)) ∧ (∀ i, IsReal (m ((c : Thread nD τ).loc main_arg2) i))
      ∧ (∀ i, IsReal (m ((c : Thread nD τ).loc main_arg3) i)) ∧ (∀ i, IsReal (m ((c : Thread nD τ).loc main_arg4) i))
      ∧ (∀ i, IsReal (m ((c : Thread nD τ).loc main_arg5) i))) :
    θ_run defs (onTc (τ := τ) (main (F := Ideal))) ⟨m, fun _ => 0, ρ⟩ (fun r => ∀ c : Dev nD,
      r.2.mem ((c.tc : Thread nD τ).loc main_v46)
        = Cert.ReferenceIdeal.ReadP.val_main_v52 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (out_value m ρ c (hfin c).1 (hfin c).2.1 (hfin c).2.2.1 (hfin c).2.2.2.1 (hfin c).2.2.2.2),
      (h c).2⟩) (Cert.KernelRun.run_out m ρ)

end Cert.KernelOut

end
-- ==== Proof.PreFinite.lean ====
/-
  The precondition read back: every float input is a real number.

  The printed precondition takes, for each of the five float inputs, the absolute value of every element, compares it
  with the float word of +∞ (strictly below), folds the comparisons of one input together by "and", and joins the five
  results by "and". If the whole is 1, every comparison is 1: |x| < +∞ for every element x of every float input. On the
  extended reals |x| = max x (−x), which is +∞ exactly at the two infinities, so every such x is a real number.
-/
import proofs.«170910_j54992761258609_1_alg».proof.Pre_finite_inputs
import proofs.«170910_j54992761258609_1_alg».proof.Proof.RowSpec
import Idealize.ShloMosaic.Lib.ReduceAll
import Idealize.ShloMosaic.PureOps.Ideal.Laws

noncomputable section

namespace Cert.PreFinite

open Idealize.ShloMosaic Cert.Pre_finite_inputs Cert.RowSpec

/-- The shape of rank 0 has one index. -/
instance : Subsingleton S_.Idx := ⟨fun a b => funext fun d => d.elim0⟩

/-- The float word `0x7F800000` is `+∞`. -/
theorem posInf32_eq : Ideal.ofBits .f32 0x7F800000#32 = ⊤ := by simp [Ideal.ofBits, Ideal.ieee]

/-- An extended real whose absolute value `max x (−x)` compares strictly below the word of `+∞` is a real number:
    the absolute value of either infinity is `+∞`. -/
theorem isReal_of_abs_lt (x : EReal) (h : Ideal.cmp .olt (max x (-x)) (Ideal.ofBits .f32 0x7F800000#32) = 1#1) :
    IsReal x := by
  rw [posInf32_eq] at h
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  induction x using EReal.rec with
  | bot => exact absurd hlt (by simp)
  | top => exact absurd hlt (by simp)
  | coe r => exact ⟨r, rfl⟩

/-- THE PRECONDITION DECODED: if the printed predicate answers 1, every element of every float input is real. -/
theorem inputs_real [Cert.Pre_finite_inputs.Facts] (x0 : FVec Ideal S500000x16 .f32) (x1 : IVec S2x8000000 32)
    (x2 : FVec Ideal S16x16 .f32) (x3 : FVec Ideal S16 .f32) (x4 : FVec Ideal S16x5 .f32) (x5 : FVec Ideal S5 .f32)
    (h : Cert.Pre_finite_inputs.fn (F := Ideal) x0 x1 x2 x3 x4 x5 = fun _ => 1#1) :
    (∀ i, IsReal (x0 i)) ∧ (∀ i, IsReal (x2 i)) ∧ (∀ i, IsReal (x3 i)) ∧ (∀ i, IsReal (x4 i)) ∧ (∀ i, IsReal (x5 i)) := by
  -- the predicate at the one index of its rank-0 result
  have e := congrFun h (fun d => d.elim0)
  dsimp only [fn, fn_part1] at e
  -- the five conjuncts of the nested "and"
  obtain ⟨e18, e22⟩ := IntOp.andi_eq_one.1 e
  obtain ⟨e13, e17⟩ := IntOp.andi_eq_one.1 e18
  obtain ⟨e8, e12⟩ := IntOp.andi_eq_one.1 e13
  obtain ⟨e3, e7⟩ := IntOp.andi_eq_one.1 e8
  -- each conjunct is an "all" over one input's comparisons |x| < +∞
  refine ⟨fun i => ?_, fun i => ?_, fun i => ?_, fun i => ?_, fun i => ?_⟩
  · exact isReal_of_abs_lt _ (Host.reduce_andi_all _ _ _ _ _ e3 i)
  · exact isReal_of_abs_lt _ (Host.reduce_andi_all _ _ _ _ _ e7 i)
  · exact isReal_of_abs_lt _ (Host.reduce_andi_all _ _ _ _ _ e12 i)
  · exact isReal_of_abs_lt _ (Host.reduce_andi_all _ _ _ _ _ e17 i)
  · exact isReal_of_abs_lt _ (Host.reduce_andi_all _ _ _ _ _ e22 i)

end Cert.PreFinite

end
-- ==== Proof.lean ====
/-
  A graph-convolution classifier: the Pallas program against its jnp reference, on the extended reals.

  Both programs take node features x [500000, 16], an edge list, and two weight/bias pairs. Both add self loops, count
  degrees, scale each edge's message  (x · W_conv)[source]  by  deg^(-1/2)[source] · deg^(-1/2)[target]  and sum the messages into
  their targets; then per node: add the bias, cut at zero, apply W_fc, add its bias — five logits — and return the logarithm
  of the softmax of the logits. The Pallas program computes the two dense stages (the projection x · W_conv and the
  per-node classifier) in two pipelined kernels over blocks of 10000 rows and everything between them on the host; the
  reference computes everything on the host.

  What is proved. (1) Both kernels' programs and the reference run to the end without a fault and leave their arguments
  as launched (the kernels' frames are the generated ones; the reference's is its run). (2) The idealized kernel program
  is the word-level one's idealization with no rewrite recorded, so that claim is empty. (3) From memories agreeing on
  the arguments both idealized programs end with the same result: each kernel's blocks assemble to one whole-array function
  (KernelRows, KernelArrays); the host operations between the kernels are the reference's and are carried as its own
  stage functions (KernelValues); the kernel writes the log-softmax as  L − (M + log S)  and the reference as  (L − M) − log S ,
  equal when the row maximum M is a real number — so the proof carries finiteness from the precondition (PreFinite)
  through the projection, the normalisation (a reciprocal square root of a positive degree, or zero), the gathers and the
  scatter-add (AggReal) to the logits (RowLaws, Bridge). The reference's run is read against the same stage functions
  (RefValue, RefRows).
-/
import proofs.«170910_j54992761258609_1_alg».proof.Defs
import proofs.«170910_j54992761258609_1_alg».proof.Proof.Gen.Kernel
import proofs.«170910_j54992761258609_1_alg».proof.Proof.Gen.Kernel.Skeleton
import proofs.«170910_j54992761258609_1_alg».proof.Proof.Gen.Kernel.Launch
import proofs.«170910_j54992761258609_1_alg».proof.Proof.Gen.Kernel.Points
import proofs.«170910_j54992761258609_1_alg».proof.Proof.Gen.Kernel.Frame
import proofs.«170910_j54992761258609_1_alg».proof.Proof.Gen.KernelIdeal
import proofs.«170910_j54992761258609_1_alg».proof.Proof.Gen.KernelIdeal.Skeleton
import proofs.«170910_j54992761258609_1_alg».proof.Proof.Gen.KernelIdeal.Launch
import proofs.«170910_j54992761258609_1_alg».proof.Proof.Gen.KernelIdeal.Points
import proofs.«170910_j54992761258609_1_alg».proof.Proof.Gen.KernelIdeal.Frame
import proofs.«170910_j54992761258609_1_alg».proof.Proof.Gen.ReferenceIdeal
import proofs.«170910_j54992761258609_1_alg».proof.Proof.Gen.Pre_finite_inputs
import proofs.«170910_j54992761258609_1_alg».proof.Proof.RefValue
import proofs.«170910_j54992761258609_1_alg».proof.Proof.KernelOut
import proofs.«170910_j54992761258609_1_alg».proof.Proof.PreFinite
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- No operation was rewritten when the kernel program was idealized. -/
theorem preserves : Cert.preserves_Kernel_KernelIdeal := trivial

/-- Both idealized programs end with the reference's last stage of the (agreeing, finite) arguments. -/
theorem algebraic : Cert.algebraic_KernelIdeal_ReferenceIdeal := by
  intro m ρ m' ρ' hpre hagree
  have hfin := fun c : Dev Cert.KernelIdeal.nD => Cert.PreFinite.inputs_real _ _ _ _ _ _ (hpre c)
  refine ⟨_, Cert.KernelOut.run_value m ρ hfin, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
